-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32768 : Shape := ⟨2, ![4096, 32768]⟩
abbrev S4096 : Shape := ⟨1, ![4096]⟩
abbrev S32768 : Shape := ⟨1, ![32768]⟩
abbrev S8192x64 : Shape := ⟨2, ![8192, 64]⟩
abbrev S_ : Shape := ⟨0, ![]⟩

class Facts : Prop where
  bcast_S_S4096x32768 : S_.BroadcastsInDim S4096x32768 (![] : Fin 0 → Fin S4096x32768.rank)
  reducesTo_S4096x32768_S_d0_1 : S4096x32768.ReducesTo [0, 1] S_
  h_S_ : 0 < S_.numel
  bcast_S_S4096 : S_.BroadcastsInDim S4096 (![] : Fin 0 → Fin S4096.rank)
  reducesTo_S4096_S_d0 : S4096.ReducesTo [0] S_
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_v10 : IVec S_ 1) (main_v15 : IVec S8192x64 1) (main_c_5 : IVec S_ 1) : IVec S_ 1 :=
  let main_v16 : IVec S_ 1 := (fun x v => Host.reduce IntOp.andi x v reducesTo_S8192x64_S_d0_1 h_S_) main_v15 main_c_5
  let main_v17 : IVec S_ 1 := andi main_v10 main_v16
  main_v17

def fn {F : FTy → Type} [FloatOps F] (main_arg0 : FVec F S4096x32768 .f32) (main_arg1 : IVec S4096 32) (main_arg2 : IVec S32768 32) (main_arg3 : IVec S8192x64 32) (main_arg4 : IVec S8192x64 1) : IVec S_ 1 :=
  let main_v0 : FVec F S4096x32768 .f32 := Host.absf main_arg0
  let main_cst : FVec F S_ .f32 := constant S_ .f32 0x7F800000#32
  let main_v1 : FVec F S4096x32768 .f32 := broadcastInDim S4096x32768 ![] bcast_S_S4096x32768 main_cst
  let main_v2 : IVec S4096x32768 1 := cmpf .olt main_v0 main_v1
  let main_c : IVec S_ 1 := constantI S_ 1 1#1
  let main_v3 : IVec S_ 1 := (fun x v => Host.reduce IntOp.andi x v reducesTo_S4096x32768_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 32768#32
  let main_v6 : IVec S4096 32 := broadcastInDim S4096 ![] bcast_S_S4096 main_c_1
  let main_v7 : IVec S4096 1 := cmpi .slt main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  let main_c_3 : IVec S_ 32 := constantI S_ 32 0#32
  let main_v11 : IVec S8192x64 32 := broadcastInDim S8192x64 ![] bcast_S_S8192x64 main_c_3
  let main_v12 : IVec S8192x64 1 := cmpi .sge main_arg3 main_v11
  let main_c_4 : IVec S_ 32 := constantI S_ 32 32768#32
  let main_v13 : IVec S8192x64 32 := broadcastInDim S8192x64 ![] bcast_S_S8192x64 main_c_4
  let main_v14 : IVec S8192x64 1 := cmpi .slt main_arg3 main_v13
  let main_v15 : IVec S8192x64 1 := andi main_v12 main_v14
  let main_c_5 : IVec S_ 1 := constantI S_ 1 1#1
  fn_part1 (F := F) main_v10 main_v15 main_c_5
-- ==== Kernel.lean ====
abbrev S4096x32768 : Shape := ⟨2, ![4096, 32768]⟩
abbrev S4096 : Shape := ⟨1, ![4096]⟩
abbrev S32768 : Shape := ⟨1, ![32768]⟩
abbrev S8192x64 : Shape := ⟨2, ![8192, 64]⟩
abbrev S_ : Shape := ⟨0, ![]⟩
abbrev S4096x1 : Shape := ⟨2, ![4096, 1]⟩
abbrev S4096x64 : Shape := ⟨2, ![4096, 64]⟩
abbrev S4096x1x1 : Shape := ⟨3, ![4096, 1, 1]⟩
abbrev S1 : Shape := ⟨1, ![1]⟩
abbrev S1x1x1 : Shape := ⟨3, ![1, 1, 1]⟩
abbrev S4096x64x1 : Shape := ⟨3, ![4096, 64, 1]⟩
abbrev S64x32768 : Shape := ⟨2, ![64, 32768]⟩
abbrev S64x1 : Shape := ⟨2, ![64, 1]⟩
abbrev S64x64 : Shape := ⟨2, ![64, 64]⟩
abbrev S64 : Shape := ⟨1, ![64]⟩

abbrev nBuf : Space → Nat
  | .hbm => 92
  | .vmem => 12
  | .smem => 0
  | _ => 0

abbrev bufTy : (tb : Table) → Fin (tcTables nBuf tb) → BufTy
  | .hbm, ⟨0, _⟩ => ⟨S4096x32768, .f32⟩
  | .hbm, ⟨1, _⟩ => ⟨S4096, .i32⟩
  | .hbm, ⟨2, _⟩ => ⟨S32768, .i32⟩
  | .hbm, ⟨3, _⟩ => ⟨S8192x64, .i32⟩
  | .hbm, ⟨4, _⟩ => ⟨S8192x64, .i1⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S4096x64, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096x1, .i32⟩
  | .hbm, ⟨38, _⟩ => ⟨S4096x64, .i1⟩
  | .hbm, ⟨39, _⟩ => ⟨S4096x1, .i32⟩
  | .hbm, ⟨40, _⟩ => ⟨S_, .i32⟩
  | .hbm, ⟨41, _⟩ => ⟨S4096x1, .i32⟩
  | .hbm, ⟨42, _⟩ => ⟨S4096x1, .i1⟩
  | .hbm, ⟨43, _⟩ => ⟨S_, .i32⟩
  | .hbm, ⟨44, _⟩ => ⟨S4096x1, .i32⟩
  | .hbm, ⟨45, _⟩ => ⟨S4096x1, .i32⟩
  | .hbm, ⟨46, _⟩ => ⟨S4096x1, .i32⟩
  | .hbm, ⟨47, _⟩ => ⟨S4096x1x1, .i32⟩
  | .hbm, ⟨48, _⟩ => ⟨S1, .i32⟩
  | .hbm, ⟨49, _⟩ => ⟨S_, .i32⟩
  | .hbm, ⟨50, _⟩ => ⟨S4096x1x1, .i32⟩
  | .hbm, ⟨51, _⟩ => ⟨S4096x1x1, .i1⟩
  | .hbm, ⟨52, _⟩ => ⟨S1x1x1, .i32⟩
  | .hbm, ⟨53, _⟩ => ⟨S4096x1x1, .i32⟩
  | .hbm, ⟨54, _⟩ => ⟨S4096x1x1, .i1⟩
  | .hbm, ⟨55, _⟩ => ⟨S4096x1x1, .i1⟩
  | .hbm, ⟨56, _⟩ => ⟨S_, .i1⟩
  | .hbm, ⟨57, _⟩ => ⟨S4096x1, .i1⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .i32⟩
  | .hbm, ⟨63, _⟩ => ⟨S4096x64, .i32⟩
  | .hbm, ⟨64, _⟩ => ⟨S4096x64, .i1⟩
  | .hbm, ⟨65, _⟩ => ⟨S_, .i32⟩
  | .hbm, ⟨66, _⟩ => ⟨S4096x64, .i32⟩
  | .hbm, ⟨67, _⟩ => ⟨S4096x64, .i32⟩
  | .hbm, ⟨68, _⟩ => ⟨S4096x64, .i32⟩
  | .hbm, ⟨69, _⟩ => ⟨S4096x64x1, .i32⟩
  | .hbm, ⟨70, _⟩ => ⟨S1, .i32⟩
  | .hbm, ⟨71, _⟩ => ⟨S_, .i32⟩
  | .hbm, ⟨72, _⟩ => ⟨S4096x64x1, .i32⟩
  | .hbm, ⟨73, _⟩ => ⟨S4096x64x1, .i1⟩
  | .hbm, ⟨74, _⟩ => ⟨S1x1x1, .i32⟩
  | .hbm, ⟨75, _⟩ => ⟨S4096x64x1, .i32⟩
  | .hbm, ⟨76, _⟩ => ⟨S4096x64x1, .i1⟩
  | .hbm, ⟨77, _⟩ => ⟨S4096x64x1, .i1⟩
  | .hbm, ⟨78, _⟩ => ⟨S_, .i1⟩
  | .hbm, ⟨79, _⟩ => ⟨S4096x64, .i1⟩
  | .hbm, ⟨80, _⟩ => ⟨S4096x64, .f32⟩
  | .hbm, ⟨81, _⟩ => ⟨S_, .f32⟩
  | .hbm, ⟨82, _⟩ => ⟨S4096x64, .f32⟩
  | .hbm, ⟨83, _⟩ => ⟨S4096x64, .f32⟩
  | .hbm, ⟨84, _⟩ => ⟨S4096x64, .f32⟩
  | .hbm, ⟨85, _⟩ => ⟨S4096, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .local _ .vmem, ⟨0, _⟩ => ⟨S64x32768, .f32⟩
  | .local _ .vmem, ⟨1, _⟩ => ⟨S64x32768, .f32⟩
  | .local _ .vmem, ⟨2, _⟩ => ⟨S64x1, .f32⟩
  | .local _ .vmem, ⟨3, _⟩ => ⟨S64x1, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S64x1, .f32⟩
  | .local _ .vmem, ⟨9, _⟩ => ⟨S64x1, .f32⟩
  | .local _ .vmem, ⟨10, _⟩ => ⟨S64x1, .f32⟩
  | .local _ .vmem, ⟨11, _⟩ => ⟨S64x1, .f32⟩
  | _, _ => ⟨S4096x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_c_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_cst : Ref sig .tc := ⟨.hbm, 59, rfl⟩
abbrev main_call1_v14 : Ref sig .tc := ⟨.hbm, 60, rfl⟩
abbrev main_v25 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_cst : Ref sig .tc := ⟨.hbm, 81, rfl⟩
abbrev main_call2_v14 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_cst : Ref sig .tc := ⟨.hbm, 88, rfl⟩
abbrev main_v31 : Ref sig .tc := ⟨.hbm, 89, rfl⟩
abbrev main_cst_7 : Ref sig .tc := ⟨.hbm, 90, rfl⟩
abbrev main_v32 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  bcast_S_S4096x64 : S_.BroadcastsInDim S4096x64 (![] : Fin 0 → Fin S4096x64.rank)
  shapeCasts_S4096x64_S4096x64x1 : S4096x64.ShapeCasts S4096x64x1
  bcast_S_S4096x64x1 : S_.BroadcastsInDim S4096x64x1 (![] : Fin 0 → Fin S4096x64x1.rank)
  bcast_S1x1x1_S4096x64x1_0_1_2 : S1x1x1.BroadcastsInDim S4096x64x1 (![0, 1, 2] : Fin 3 → Fin S4096x64x1.rank)
  reducesTo_S4096x64x1_S4096x64_d2 : S4096x64x1.ReducesTo [2] S4096x64
  shapeCasts_S4096_S4096x1 : S4096.ShapeCasts S4096x1
  inb_S64x32768_S64x32768_0_0 : ∀ a, (![0, 0] : Fin 2 → Nat) a + S64x32768.size a ≤ S64x32768.size a
  h_S64x32768 : 0 < S64x32768.numel
  reduces_S64x32768_S64 : S64x32768.Reduces [1] S64
  shapeCasts_S64_S64x1 : S64.ShapeCasts S64x1
  broadcasts_S64x1_S64x32768 : S64x1.Broadcasts S64x32768
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S64x1_S64x64 : S64x1.Broadcasts S64x64
  reduces_S64x64_S64 : S64x64.Reduces [1] S64
  reducesTo_S4096x1_S_d0_1 : S4096x1.ReducesTo [0, 1] S_
  gather_S32768_S4096x1_S4096_n_0_n_n_0_1_1_wf : GatherDims.WF S32768 S4096x1 S4096 [] [0] [] [0] [] 1 ![1]
  gather_S8192x64_S4096x1_S4096x64_1_0_n_n_0_1_164_wf : GatherDims.WF S8192x64 S4096x1 S4096x64 [1] [0] [] [0] [] 1 ![1, 64]
  gather_S4096x32768_S4096x1x1_S4096x1_n_1_0_0_1_2_11_wf : GatherDims.WF S4096x32768 S4096x1x1 S4096x1 [] [1] [0] [1] [0] 2 ![1, 1]
  gather_S4096x32768_S4096x64x1_S4096x64_n_1_0_0_1_2_11_wf : GatherDims.WF S4096x32768 S4096x64x1 S4096x64 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32768.size a ≤ S4096x32768.size a
  hwx0_0 : ∀ i : grid0.Coords, EltTy.bits .f32 = 32 ∨ (Rect.block (s := S4096x32768) S64x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S4096x1.size a
  hwx0_1 : ∀ i : grid0.Coords, EltTy.bits .f32 = 32 ∨ (Rect.block (s := S4096x1) S64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S4096x64.size a
  hwx0_2 : ∀ i : grid0.Coords, EltTy.bits .f32 = 32 ∨ (Rect.block (s := S4096x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S4096x64.size a
  hwx0_3 : ∀ i : grid0.Coords, EltTy.bits .f32 = 32 ∨ (Rect.block (s := S4096x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S4096x1.size a
  hwx0_4 : ∀ i : grid0.Coords, EltTy.bits .f32 = 32 ∨ (Rect.block (s := S4096x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S4096x1.size a
  hwx0_5 : ∀ i : grid0.Coords, EltTy.bits .f32 = 32 ∨ (Rect.block (s := S4096x1) S64x1.size (cc0_transform_5 i) (hinb0_5 i)).WholeWords (EltTy.packing .f32)

variable [Facts₀]

def gather_S32768_S4096x1_S4096_n_0_n_n_0_1_1 : GatherDims S32768 S4096x1 S4096 where
  offsetDims := []
  collapsedSliceDims := [0]
  operandBatchingDims := []
  startIndicesBatchingDims := []
  startIndexMap := [0]
  indexVectorDim := 1
  sliceSizes := ![1]
  wf := gather_S32768_S4096x1_S4096_n_0_n_n_0_1_1_wf
def gather_S8192x64_S4096x1_S4096x64_1_0_n_n_0_1_164 : GatherDims S8192x64 S4096x1 S4096x64 where
  offsetDims := [1]
  collapsedSliceDims := [0]
  operandBatchingDims := []
  startIndicesBatchingDims := []
  startIndexMap := [0]
  indexVectorDim := 1
  sliceSizes := ![1, 64]
  wf := gather_S8192x64_S4096x1_S4096x64_1_0_n_n_0_1_164_wf
def gather_S4096x32768_S4096x1x1_S4096x1_n_1_0_0_1_2_11 : GatherDims S4096x32768 S4096x1x1 S4096x1 where
  offsetDims := []
  collapsedSliceDims := [1]
  operandBatchingDims := [0]
  startIndicesBatchingDims := [0]
  startIndexMap := [1]
  indexVectorDim := 2
  sliceSizes := ![1, 1]
  wf := gather_S4096x32768_S4096x1x1_S4096x1_n_1_0_0_1_2_11_wf
def gather_S4096x32768_S4096x64x1_S4096x64_n_1_0_0_1_2_11 : GatherDims S4096x32768 S4096x64x1 S4096x64 where
  offsetDims := []
  collapsedSliceDims := [1]
  operandBatchingDims := [0]
  startIndicesBatchingDims := [0]
  startIndexMap := [1]
  indexVectorDim := 2
  sliceSizes := ![1, 1]
  wf := gather_S4096x32768_S4096x64x1_S4096x64_n_1_0_0_1_2_11_wf

abbrev win0_0 : Pipeline.Window sig grid0 :=
  Pipeline.Window.ofSpec (Memref.whole main_arg0) S64x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S64x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30) S64x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x32768 : Shape := ⟨2, ![4096, 32768]⟩
abbrev S4096 : Shape := ⟨1, ![4096]⟩
abbrev S32768 : Shape := ⟨1, ![32768]⟩
abbrev S8192x64 : Shape := ⟨2, ![8192, 64]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S4096x64 : Shape := ⟨2, ![4096, 64]⟩
abbrev S4096x64x1 : Shape := ⟨3, ![4096, 64, 1]⟩

abbrev nBuf : Space → Nat
  | .hbm => 123
  | .vmem => 0
  | .smem => 0
  | _ => 0

abbrev bufTy : (tb : Table) → Fin (tcTables nBuf tb) → BufTy
  | .hbm, ⟨0, _⟩ => ⟨S4096x32768, .f32⟩
  | .hbm, ⟨1, _⟩ => ⟨S4096, .i32⟩
  | .hbm, ⟨2, _⟩ => ⟨S32768, .i32⟩
  | .hbm, ⟨3, _⟩ => ⟨S8192x64, .i32⟩
  | .hbm, ⟨4, _⟩ => ⟨S8192x64, .i1⟩
  | .hbm, ⟨5, _⟩ => ⟨S_, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096x1, .f32⟩
  | .hbm, ⟨11, _⟩ => ⟨S4096x32768, .f32⟩
  | .hbm, ⟨12, _⟩ => ⟨S4096x32768, .f32⟩
  | .hbm, ⟨13, _⟩ => ⟨S4096x32768, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x32768, .f32⟩
  | .hbm, ⟨18, _⟩ => ⟨S4096x32768, .f32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S4096x1, .i32⟩
  | .hbm, ⟨32, _⟩ => ⟨S_, .i32⟩
  | .hbm, ⟨33, _⟩ => ⟨S4096x1, .i32⟩
  | .hbm, ⟨34, _⟩ => ⟨S4096x1, .i1⟩
  | .hbm, ⟨35, _⟩ => ⟨S_, .i32⟩
  | .hbm, ⟨36, _⟩ => ⟨S4096x1, .i32⟩
  | .hbm, ⟨37, _⟩ => ⟨S4096x1, .i32⟩
  | .hbm, ⟨38, _⟩ => ⟨S4096x1, .i32⟩
  | .hbm, ⟨39, _⟩ => ⟨S4096x1x1, .i32⟩
  | .hbm, ⟨40, _⟩ => ⟨S1, .i32⟩
  | .hbm, ⟨41, _⟩ => ⟨S_, .i32⟩
  | .hbm, ⟨42, _⟩ => ⟨S4096x1x1, .i32⟩
  | .hbm, ⟨43, _⟩ => ⟨S4096x1x1, .i1⟩
  | .hbm, ⟨44, _⟩ => ⟨S1x1x1, .i32⟩
  | .hbm, ⟨45, _⟩ => ⟨S4096x1x1, .i32⟩
  | .hbm, ⟨46, _⟩ => ⟨S4096x1x1, .i1⟩
  | .hbm, ⟨47, _⟩ => ⟨S4096x1x1, .i1⟩
  | .hbm, ⟨48, _⟩ => ⟨S_, .i1⟩
  | .hbm, ⟨49, _⟩ => ⟨S4096x1, .i1⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096, .f32⟩
  | .hbm, ⟨55, _⟩ => ⟨S_, .i32⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S_, .i32⟩
  | .hbm, ⟨60, _⟩ => ⟨S4096, .i32⟩
  | .hbm, ⟨61, _⟩ => ⟨S4096, .i1⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S4096, .i32⟩
  | .hbm, ⟨66, _⟩ => ⟨S4096x1, .i32⟩
  | .hbm, ⟨67, _⟩ => ⟨S4096x64, .i32⟩
  | .hbm, ⟨68, _⟩ => ⟨S_, .i32⟩
  | .hbm, ⟨69, _⟩ => ⟨S4096, .i32⟩
  | .hbm, ⟨70, _⟩ => ⟨S4096, .i1⟩
  | .hbm, ⟨71, _⟩ => ⟨S_, .i32⟩
  | .hbm, ⟨72, _⟩ => ⟨S4096, .i32⟩
  | .hbm, ⟨73, _⟩ => ⟨S4096, .i32⟩
  | .hbm, ⟨74, _⟩ => ⟨S4096, .i32⟩
  | .hbm, ⟨75, _⟩ => ⟨S4096x1, .i32⟩
  | .hbm, ⟨76, _⟩ => ⟨S4096x64, .i1⟩
  | .hbm, ⟨77, _⟩ => ⟨S4096x64, .f32⟩
  | .hbm, ⟨78, _⟩ => ⟨S_, .i32⟩
  | .hbm, ⟨79, _⟩ => ⟨S4096x64, .i32⟩
  | .hbm, ⟨80, _⟩ => ⟨S4096x64, .i1⟩
  | .hbm, ⟨81, _⟩ => ⟨S_, .i32⟩
  | .hbm, ⟨82, _⟩ => ⟨S4096x64, .i32⟩
  | .hbm, ⟨83, _⟩ => ⟨S4096x64, .i32⟩
  | .hbm, ⟨84, _⟩ => ⟨S4096x64, .i32⟩
  | .hbm, ⟨85, _⟩ => ⟨S4096x64x1, .i32⟩
  | .hbm, ⟨86, _⟩ => ⟨S1, .i32⟩
  | .hbm, ⟨87, _⟩ => ⟨S_, .i32⟩
  | .hbm, ⟨88, _⟩ => ⟨S4096x64x1, .i32⟩
  | .hbm, ⟨89, _⟩ => ⟨S4096x64x1, .i1⟩
  | .hbm, ⟨90, _⟩ => ⟨S1x1x1, .i32⟩
  | .hbm, ⟨91, _⟩ => ⟨S4096x64x1, .i32⟩
  | .hbm, ⟨92, _⟩ => ⟨S4096x64x1, .i1⟩
  | .hbm, ⟨93, _⟩ => ⟨S4096x64x1, .i1⟩
  | .hbm, ⟨94, _⟩ => ⟨S_, .i1⟩
  | .hbm, ⟨95, _⟩ => ⟨S4096x64, .i1⟩
  | .hbm, ⟨96, _⟩ => ⟨S4096x64, .f32⟩
  | .hbm, ⟨97, _⟩ => ⟨S_, .f32⟩
  | .hbm, ⟨98, _⟩ => ⟨S4096x64, .f32⟩
  | .hbm, ⟨99, _⟩ => ⟨S4096x64, .f32⟩
  | .hbm, ⟨100, _⟩ => ⟨S4096x64, .f32⟩
  | .hbm, ⟨101, _⟩ => ⟨S_, .f32⟩
  | .hbm, ⟨102, _⟩ => ⟨S4096, .f32⟩
  | .hbm, ⟨103, _⟩ => ⟨S4096, .f32⟩
  | .hbm, ⟨104, _⟩ => ⟨S4096, .f32⟩
  | .hbm, ⟨105, _⟩ => ⟨S_, .f32⟩
  | .hbm, ⟨106, _⟩ => ⟨S_, .f32⟩
  | .hbm, ⟨107, _⟩ => ⟨S4096, .f32⟩
  | .hbm, ⟨108, _⟩ => ⟨S4096, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S4096, .f32⟩
  | .hbm, ⟨113, _⟩ => ⟨S_, .f32⟩
  | .hbm, ⟨114, _⟩ => ⟨S_, .f32⟩
  | .hbm, ⟨115, _⟩ => ⟨S4096, .f32⟩
  | .hbm, ⟨116, _⟩ => ⟨S4096, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | _, _ => ⟨S4096x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_cst : Ref sig .tc := ⟨.hbm, 51, rfl⟩
abbrev main_call0_v14 : Ref sig .tc := ⟨.hbm, 52, rfl⟩
abbrev main_v21 : Ref sig .tc := ⟨.hbm, 53, rfl⟩
abbrev main_v22 : Ref sig .tc := ⟨.hbm, 54, rfl⟩
abbrev main_c_4 : Ref sig .tc := ⟨.hbm, 55, rfl⟩
abbrev main_call1_v0 : Ref sig .tc := ⟨.hbm, 56, rfl⟩
abbrev main_call1_v1 : Ref sig .tc := ⟨.hbm, 57, rfl⟩
abbrev main_v23 : Ref sig .tc := ⟨.hbm, 58, rfl⟩
abbrev main_c_5 : Ref sig .tc := ⟨.hbm, 59, rfl⟩
abbrev main_v24 : Ref sig .tc := ⟨.hbm, 60, rfl⟩
abbrev main_v25 : Ref sig .tc := ⟨.hbm, 61, rfl⟩
abbrev main_c_6 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_c_7 : Ref sig .tc := ⟨.hbm, 68, rfl⟩
abbrev main_v31 : Ref sig .tc := ⟨.hbm, 69, rfl⟩
abbrev main_v32 : Ref sig .tc := ⟨.hbm, 70, rfl⟩
abbrev main_c_8 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_c_1 : Ref sig .tc := ⟨.hbm, 86, rfl⟩
abbrev main_call2_c_2 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_3 : Ref sig .tc := ⟨.hbm, 94, rfl⟩
abbrev main_call2_v12 : Ref sig .tc := ⟨.hbm, 95, rfl⟩
abbrev main_call2_v13 : Ref sig .tc := ⟨.hbm, 96, rfl⟩
abbrev main_call2_cst : Ref sig .tc := ⟨.hbm, 97, rfl⟩
abbrev main_call2_v14 : Ref sig .tc := ⟨.hbm, 98, rfl⟩
abbrev main_v39 : Ref sig .tc := ⟨.hbm, 99, rfl⟩
abbrev main_v40 : Ref sig .tc := ⟨.hbm, 100, rfl⟩
abbrev main_cst_9 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_cst_10 : Ref sig .tc := ⟨.hbm, 105, rfl⟩
abbrev main_call3_v0 : Ref sig .tc := ⟨.hbm, 106, rfl⟩
abbrev main_call3_v1 : Ref sig .tc := ⟨.hbm, 107, rfl⟩
abbrev main_v44 : Ref sig .tc := ⟨.hbm, 108, rfl⟩
abbrev main_cst_11 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_cst_12 : Ref sig .tc := ⟨.hbm, 113, rfl⟩
abbrev main_call4_v0 : Ref sig .tc := ⟨.hbm, 114, rfl⟩
abbrev main_call4_v1 : Ref sig .tc := ⟨.hbm, 115, rfl⟩
abbrev main_v48 : Ref sig .tc := ⟨.hbm, 116, rfl⟩
abbrev main_cst_13 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_cst_14 : Ref sig .tc := ⟨.hbm, 121, rfl⟩
abbrev main_v52 : Ref sig .tc := ⟨.hbm, 122, rfl⟩

abbrev nD : Nat := 1
abbrev τ : Topo := Topo.v7x

variable {F : FTy → Type} [FloatOps F]

class Facts₀ : Prop where
  reducesTo_S4096x32768_S4096_d1 : S4096x32768.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32768_0_1 : S4096x1.BroadcastsInDim S4096x32768 (![0, 1] : Fin 2 → Fin S4096x32768.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  bcast_S_S4096x64 : S_.BroadcastsInDim S4096x64 (![] : Fin 0 → Fin S4096x64.rank)
  shapeCasts_S4096x64_S4096x64x1 : S4096x64.ShapeCasts S4096x64x1
  bcast_S_S4096x64x1 : S_.BroadcastsInDim S4096x64x1 (![] : Fin 0 → Fin S4096x64x1.rank)
  bcast_S1x1x1_S4096x64x1_0_1_2 : S1x1x1.BroadcastsInDim S4096x64x1 (![0, 1, 2] : Fin 3 → Fin S4096x64x1.rank)
  reducesTo_S4096x64x1_S4096x64_d2 : S4096x64x1.ReducesTo [2] S4096x64
  reducesTo_S4096x64_S4096_d1 : S4096x64.ReducesTo [1] S4096
  reducesTo_S4096_S_d0 : S4096.ReducesTo [0] S_
  gather_S32768_S4096x1_S4096_n_0_n_n_0_1_1_wf : GatherDims.WF S32768 S4096x1 S4096 [] [0] [] [0] [] 1 ![1]
  gather_S4096x32768_S4096x1x1_S4096x1_n_1_0_0_1_2_11_wf : GatherDims.WF S4096x32768 S4096x1x1 S4096x1 [] [1] [0] [1] [0] 2 ![1, 1]
  gather_S8192x64_S4096x1_S4096x64_1_0_n_n_0_1_164_wf : GatherDims.WF S8192x64 S4096x1 S4096x64 [1] [0] [] [0] [] 1 ![1, 64]
  gather_S4096x32768_S4096x64x1_S4096x64_n_1_0_0_1_2_11_wf : GatherDims.WF S4096x32768 S4096x64x1 S4096x64 [] [1] [0] [1] [0] 2 ![1, 1]

variable [Facts₀]

def gather_S32768_S4096x1_S4096_n_0_n_n_0_1_1 : GatherDims S32768 S4096x1 S4096 where
  offsetDims := []
  collapsedSliceDims := [0]
  operandBatchingDims := []
  startIndicesBatchingDims := []
  startIndexMap := [0]
  indexVectorDim := 1
  sliceSizes := ![1]
  wf := gather_S32768_S4096x1_S4096_n_0_n_n_0_1_1_wf
def gather_S4096x32768_S4096x1x1_S4096x1_n_1_0_0_1_2_11 : GatherDims S4096x32768 S4096x1x1 S4096x1 where
  offsetDims := []
  collapsedSliceDims := [1]
  operandBatchingDims := [0]
  startIndicesBatchingDims := [0]
  startIndexMap := [1]
  indexVectorDim := 2
  sliceSizes := ![1, 1]
  wf := gather_S4096x32768_S4096x1x1_S4096x1_n_1_0_0_1_2_11_wf
def gather_S8192x64_S4096x1_S4096x64_1_0_n_n_0_1_164 : GatherDims S8192x64 S4096x1 S4096x64 where
  offsetDims := [1]
  collapsedSliceDims := [0]
  operandBatchingDims := []
  startIndicesBatchingDims := []
  startIndexMap := [0]
  indexVectorDim := 1
  sliceSizes := ![1, 64]
  wf := gather_S8192x64_S4096x1_S4096x64_1_0_n_n_0_1_164_wf
def gather_S4096x32768_S4096x64x1_S4096x64_n_1_0_0_1_2_11 : GatherDims S4096x32768 S4096x64x1 S4096x64 where
  offsetDims := []
  collapsedSliceDims := [1]
  operandBatchingDims := [0]
  startIndicesBatchingDims := [0]
  startIndexMap := [1]
  indexVectorDim := 2
  sliceSizes := ![1, 1]
  wf := gather_S4096x32768_S4096x64x1_S4096x64_n_1_0_0_1_2_11_wf

class Facts : Prop extends Facts₀ where

variable [Facts]
-- ==== Proof.RowLoss.lean ====
/-
  The loss both programs compute, as ONE function of row data, and the law that joins their two arrangements.

  Row data: the logits x[b, c] (4096 rows, 32768 classes), the label's class cy b, the row's 64 neighbour classes
  cn b k with their validity bits mb b k, and the row's cluster bit κ b.  With m_b the row's maximum,
  e_b(c) = exp (x[b,c] - m_b) and S_b = Σ_c e_b(c):

    the kernel's arrangement   (Σ_b  log S_b - log (e_b(cy b) + κ_b · Σ_k e_b(cn b k) · mb b k)) / 4096
    the reference's            (-(Σ_b [κ_b = 0] log p_b(cy b)) + -(Σ_b [κ_b = 1] log (p_b(cy b) + Σ_k p_b(cn b k) · mb b k))) / 4096
                               with p_b(c) = e_b(c) / S_b  (the softmax).

  For finite logits every quantity is a real number, S_b > 0 and e_b > 0, and log (u / S) = log u - log S for
  u, S > 0 gives the equality row by row.
-/
import Idealize.ShloMosaic.PureOps.Ideal
import Idealize.ShloMosaic.PureOps.Ideal.Laws
import Idealize.ShloMosaic.Lib.ValueIdx

noncomputable section

namespace Cert.RowLoss

open Idealize.ShloMosaic Idealize.ShloMosaic.ValueIdx

/-! ## The data, read off arrays -/

/-- A one-bit word as a number: 0 or 1. -/
def flag (w : BitVec 1) : EReal := ((w.toNat : ℝ) : EReal)

/-- A 32-bit index word read signed and clamped into the class axis [0, 32767]. -/
def col (w : BitVec 32) : Fin 32768 := ⟨min w.toInt.toNat 32767, by omega⟩

/-- The logits by row and class. -/
def xOf (X : (⟨2, ![4096, 32768]⟩ : Shape).Idx → EReal) : Fin 4096 → Fin 32768 → EReal := fun b c => X (ix2 b c)
/-- The label's class, per row. -/
def cyOf (y : (⟨1, ![4096]⟩ : Shape).Idx → BitVec 32) : Fin 4096 → Fin 32768 := fun b => col (y (ix1 b))
/-- The neighbour classes, per row and slot. -/
def cnOf (NB : (⟨2, ![4096, 64]⟩ : Shape).Idx → BitVec 32) : Fin 4096 → Fin 64 → Fin 32768 := fun b k => col (NB (ix2 b k))
/-- The neighbour validity bits, per row and slot. -/
def mbOf (MB : (⟨2, ![4096, 64]⟩ : Shape).Idx → BitVec 1) : Fin 4096 → Fin 64 → BitVec 1 := fun b k => MB (ix2 b k)
/-- The cluster bit, per row. -/
def kOf (KP : (⟨1, ![4096]⟩ : Shape).Idx → BitVec 1) : Fin 4096 → BitVec 1 := fun b => KP (ix1 b)

/-! ## The two arrangements -/

section
variable (x : Fin 4096 → Fin 32768 → EReal) (cy : Fin 4096 → Fin 32768) (cn : Fin 4096 → Fin 64 → Fin 32768)
  (mb : Fin 4096 → Fin 64 → BitVec 1) (κ : Fin 4096 → BitVec 1)

/-- The row's maximum: the fold of max from -∞ over the classes. -/
def rowMax (b : Fin 4096) : EReal := (Finset.univ : Finset (Fin 32768)).fold max (⊥ : EReal) (x b)
/-- e_b(c) = exp (x[b,c] - m_b). -/
def ex (b : Fin 4096) (c : Fin 32768) : EReal := Ideal.exp (x b c - rowMax x b)
/-- S_b = Σ_c e_b(c). -/
def rowSum (b : Fin 4096) : EReal := ∑ c : Fin 32768, ex x b c
/-- Σ_k e_b(cn b k) · mb b k. -/
def nbrSum (b : Fin 4096) : EReal := ∑ k : Fin 64, ex x b (cn b k) * flag (mb b k)
/-- The kernel's per-row term: log S_b - log (e_b(cy b) + κ_b · Σ_k e_b(cn b k) · mb b k). -/
def kernelRow (b : Fin 4096) : EReal :=
  Ideal.log (rowSum x b) - Ideal.log (ex x b (cy b) + flag (κ b) * nbrSum x cn mb b)
/-- The kernel's result: the mean of its per-row terms. -/
def kernelTotal : EReal := Ideal.div (∑ b : Fin 4096, kernelRow x cy cn mb κ b) ((4096 : ℝ) : EReal)

/-- The softmax p_b(c) = e_b(c) / S_b. -/
def prob (b : Fin 4096) (c : Fin 32768) : EReal := Ideal.div (ex x b c) (rowSum x b)
/-- The reference's cluster-row term: log (p_b(cy b) + Σ_k p_b(cn b k) · mb b k). -/
def refCls (b : Fin 4096) : EReal := Ideal.log (prob x b (cy b) + ∑ k : Fin 64, prob x b (cn b k) * flag (mb b k))
/-- The reference's instance-row term: log p_b(cy b). -/
def refIns (b : Fin 4096) : EReal := Ideal.log (prob x b (cy b))
/-- The reference's result. -/
def refTotal : EReal :=
  Ideal.div (-(∑ b : Fin 4096, if κ b = 1#1 then (0 : EReal) else refIns x cy b)
      + -(∑ b : Fin 4096, if κ b = 1#1 then refCls x cy cn mb b else (0 : EReal))) ((4096 : ℝ) : EReal)

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row of finite logits has a finite maximum: it is above one entry and below +∞. -/
theorem rowMax_real (hx : ∀ b c, ∃ r : ℝ, x b c = (r : EReal)) (b : Fin 4096) : ∃ M : ℝ, rowMax x b = (M : EReal) := by
  obtain ⟨r0, hr0⟩ := hx b ⟨0, by norm_num⟩
  have h1 : rowMax x b ≠ ⊥ := by
    have hle : (r0 : EReal) ≤ rowMax x b := by
      unfold rowMax
      rw [Finset.le_fold_max]
      exact Or.inr ⟨⟨0, by norm_num⟩, Finset.mem_univ _, le_of_eq hr0.symm⟩
    intro h
    rw [h] at hle
    exact absurd hle (not_le.mpr (EReal.bot_lt_coe r0))
  have h2 : rowMax x b ≠ ⊤ := by
    have hlt : rowMax x b < ⊤ := by
      unfold rowMax
      rw [Finset.fold_max_lt]
      refine ⟨bot_lt_top, fun c _ => ?_⟩
      obtain ⟨r, hr⟩ := hx b c
      rw [hr]; exact EReal.coe_lt_top r
    exact ne_of_lt hlt
  exact ⟨(rowMax x b).toReal, (EReal.coe_toReal h2 h1).symm⟩

/-- THE LAW: for finite logits the two arrangements are one number. Every e_b(c) is a positive real, so S_b > 0 and
    both logarithms' arguments are positive reals; then log (u / S) = log u - log S, row by row, on the cluster bit. -/
theorem total_eq (hx : ∀ b c, ∃ r : ℝ, x b c = (r : EReal)) :
    kernelTotal x cy cn mb κ = refTotal x cy cn mb κ := by
  classical
  choose M hM using rowMax_real x hx
  choose xr hxr using hx
  let e : Fin 4096 → Fin 32768 → ℝ := fun b c => Real.exp (xr b c - M b)
  let S : Fin 4096 → ℝ := fun b => ∑ c, e b c
  let N : Fin 4096 → ℝ := fun b => ∑ k, e b (cn b k) * ((mb b k).toNat : ℝ)
  have hex : ∀ b c, ex x b c = ((e b c : ℝ) : EReal) := fun b c => by
    unfold ex; rw [hxr, hM, ← EReal.coe_sub, Ideal.exp_coe]
  have hS : ∀ b, rowSum x b = ((S b : ℝ) : EReal) := fun b => by
    unfold rowSum; rw [coe_sum]; exact Finset.sum_congr rfl (fun c _ => hex b c)
  have hepos : ∀ b c, 0 < e b c := fun b c => Real.exp_pos _
  have hSpos : ∀ b, 0 < S b := fun b =>
    Finset.sum_pos (fun c _ => hepos b c) ⟨⟨0, by norm_num⟩, Finset.mem_univ _⟩
  have hflag : ∀ w : BitVec 1, flag w = (((w.toNat : ℝ)) : EReal) := fun w => rfl
  have hN : ∀ b, nbrSum x cn mb b = ((N b : ℝ) : EReal) := fun b => by
    unfold nbrSum; rw [coe_sum]
    refine Finset.sum_congr rfl (fun k _ => ?_)
    rw [hex, hflag, ← EReal.coe_mul]
  have hNnn : ∀ b, 0 ≤ N b := fun b =>
    Finset.sum_nonneg (fun k _ => mul_nonneg (hepos b _).le (Nat.cast_nonneg _))
  have hTpos : ∀ b, 0 < e b (cy b) + ((κ b).toNat : ℝ) * N b := fun b =>
    add_pos_of_pos_of_nonneg (hepos b _) (mul_nonneg (Nat.cast_nonneg _) (hNnn b))
  have hKR : ∀ b, kernelRow x cy cn mb κ b
      = ((Real.log (S b) - Real.log (e b (cy b) + ((κ b).toNat : ℝ) * N b) : ℝ) : EReal) := fun b => by
    unfold kernelRow
    rw [hS, hex, hN, hflag, ← EReal.coe_mul, ← EReal.coe_add, Ideal.log_coe, Ideal.log_coe,
      if_neg (not_le.mpr (hSpos b)), if_neg (not_le.mpr (hTpos b)), ← EReal.coe_sub]
  have hP : ∀ b c, prob x b c = ((e b c / S b : ℝ) : EReal) := fun b c => by
    unfold prob
    rw [hex, hS, Ideal.div_coe (ne_of_gt (hSpos b)), ← EReal.coe_mul, mul_one_div]
  have hPpos : ∀ b c, 0 < e b c / S b := fun b c => div_pos (hepos b c) (hSpos b)
  have hRI : ∀ b, refIns x cy b = ((Real.log (e b (cy b) / S b) : ℝ) : EReal) := fun b => by
    unfold refIns
    rw [hP, Ideal.log_coe, if_neg (not_le.mpr (hPpos b _))]
  have hQnn : ∀ b, 0 ≤ ∑ k, e b (cn b k) / S b * ((mb b k).toNat : ℝ) := fun b =>
    Finset.sum_nonneg (fun k _ => mul_nonneg (hPpos b _).le (Nat.cast_nonneg _))
  have hRC : ∀ b, refCls x cy cn mb b
      = ((Real.log (e b (cy b) / S b + ∑ k, e b (cn b k) / S b * ((mb b k).toNat : ℝ)) : ℝ) : EReal) := fun b => by
    unfold refCls
    have hsum : (∑ k : Fin 64, prob x b (cn b k) * flag (mb b k))
        = ((∑ k, e b (cn b k) / S b * ((mb b k).toNat : ℝ) : ℝ) : EReal) := by
      rw [coe_sum]
      refine Finset.sum_congr rfl (fun k _ => ?_)
      rw [hP, hflag, ← EReal.coe_mul]
    rw [hP, hsum, ← EReal.coe_add, Ideal.log_coe,
      if_neg (not_le.mpr (add_pos_of_pos_of_nonneg (hPpos b _) (hQnn b)))]
  -- the two totals as coerced reals
  have hK : kernelTotal x cy cn mb κ
      = (((∑ b, (Real.log (S b) - Real.log (e b (cy b) + ((κ b).toNat : ℝ) * N b))) * (1 / 4096) : ℝ) : EReal) := by
    unfold kernelTotal
    rw [Ideal.div_coe (by norm_num : (4096 : ℝ) ≠ 0), EReal.coe_mul, coe_sum]
    simp only [hKR]
  have hR : refTotal x cy cn mb κ
      = (((-(∑ b, if κ b = 1#1 then (0 : ℝ) else Real.log (e b (cy b) / S b))
          + -(∑ b, if κ b = 1#1 then Real.log (e b (cy b) / S b + ∑ k, e b (cn b k) / S b * ((mb b k).toNat : ℝ)) else (0 : ℝ)))
          * (1 / 4096) : ℝ) : EReal) := by
    unfold refTotal
    have hA : (∑ b : Fin 4096, if κ b = 1#1 then (0 : EReal) else refIns x cy b)
        = ((∑ b, if κ b = 1#1 then (0 : ℝ) else Real.log (e b (cy b) / S b) : ℝ) : EReal) := by
      rw [coe_sum]
      refine Finset.sum_congr rfl (fun b _ => ?_)
      rw [hRI]; split <;> simp
    have hB : (∑ b : Fin 4096, if κ b = 1#1 then refCls x cy cn mb b else (0 : EReal))
        = ((∑ b, if κ b = 1#1 then Real.log (e b (cy b) / S b + ∑ k, e b (cn b k) / S b * ((mb b k).toNat : ℝ)) else (0 : ℝ) : ℝ) : EReal) := by
      rw [coe_sum]
      refine Finset.sum_congr rfl (fun b _ => ?_)
      rw [hRC]; split <;> simp
    rw [hA, hB, ← EReal.coe_neg, ← EReal.coe_neg, ← EReal.coe_add, Ideal.div_coe (by norm_num : (4096 : ℝ) ≠ 0),
      ← EReal.coe_mul]
  have key : (∑ b, (Real.log (S b) - Real.log (e b (cy b) + ((κ b).toNat : ℝ) * N b)))
      = -(∑ b, if κ b = 1#1 then (0 : ℝ) else Real.log (e b (cy b) / S b))
        + -(∑ b, if κ b = 1#1 then Real.log (e b (cy b) / S b + ∑ k, e b (cn b k) / S b * ((mb b k).toNat : ℝ)) else (0 : ℝ)) := by
    rw [← Finset.sum_neg_distrib, ← Finset.sum_neg_distrib, ← Finset.sum_add_distrib]
    refine Finset.sum_congr rfl (fun b _ => ?_)
    have hS0 : S b ≠ 0 := ne_of_gt (hSpos b)
    have he0 : e b (cy b) ≠ 0 := ne_of_gt (hepos b _)
    rcases BitVec.eq_zero_or_eq_one (κ b) with h | h
    · -- an instance row: κ = 0
      have hne : ¬ ((0#1 : BitVec 1) = 1#1) := by decide
      rw [h, if_neg hne, if_neg hne]
      simp only [BitVec.toNat_ofNat, Nat.zero_mod, Nat.cast_zero, zero_mul, add_zero, neg_zero]
      rw [Real.log_div he0 hS0]; ring
    · -- a cluster row: κ = 1
      rw [h, if_pos rfl, if_pos rfl]
      have hsum : (∑ k, e b (cn b k) / S b * ((mb b k).toNat : ℝ)) = N b / S b := by
        show _ = (∑ k, e b (cn b k) * ((mb b k).toNat : ℝ)) / S b
        rw [Finset.sum_div]
        exact Finset.sum_congr rfl (fun k _ => by ring)
      have hT0 : e b (cy b) + N b ≠ 0 := ne_of_gt (add_pos_of_pos_of_nonneg (hepos b _) (hNnn b))
      rw [hsum, ← add_div, Real.log_div hT0 hS0]
      simp only [BitVec.toNat_ofNat, Nat.one_mod, Nat.cast_one, one_mul, neg_zero, zero_add]
      ring
  rw [hK, hR, key]

end

/-! ## The kernel's arrangement over the five arrays its region stages -/

section
variable (X : (⟨2, ![4096, 32768]⟩ : Shape).Idx → EReal) (XL : (⟨2, ![4096, 1]⟩ : Shape).Idx → EReal)
  (XN MK : (⟨2, ![4096, 64]⟩ : Shape).Idx → EReal) (IC : (⟨2, ![4096, 1]⟩ : Shape).Idx → EReal)

/-- Row b of the kernel's output from the logits X, the label logits XL[b, 0], the neighbour logits XN[b, k], the
    float mask MK[b, k] and the float cluster flag IC[b, 0]:
    log Σ_c exp (X[b,c] - m_b) - log (exp (XL[b,0] - m_b) + IC[b,0] · Σ_k exp (XN[b,k] - m_b) · MK[b,k]). -/
def kernelRowArr (b : Fin 4096) : EReal :=
  Ideal.log (∑ c : Fin 32768, Ideal.exp (X (ix2 b c) - rowMax (xOf X) b))
    - Ideal.log (Ideal.exp (XL (ix2 b 0) - rowMax (xOf X) b)
        + IC (ix2 b 0) * ∑ k : Fin 64, Ideal.exp (XN (ix2 b k) - rowMax (xOf X) b) * MK (ix2 b k))

/-- The kernel's [4096, 1] output array. -/
def kernelOut : (⟨2, ![4096, 1]⟩ : Shape).Idx → EReal := fun j => kernelRowArr X XL XN MK IC ⟨(j 0).val, idx2_lt0 j⟩

/-- Where the staged arrays hold the gathered logits and the flags, the row term is `kernelRow` of the row data. -/
theorem kernelRowArr_eq (cy : Fin 4096 → Fin 32768) (cn : Fin 4096 → Fin 64 → Fin 32768)
    (mb : Fin 4096 → Fin 64 → BitVec 1) (κ : Fin 4096 → BitVec 1) (b : Fin 4096)
    (hL : XL (ix2 b 0) = X (ix2 b (cy b))) (hN : ∀ k, XN (ix2 b k) = X (ix2 b (cn b k)))
    (hM : ∀ k, MK (ix2 b k) = flag (mb b k)) (hC : IC (ix2 b 0) = flag (κ b)) :
    kernelRowArr X XL XN MK IC b = kernelRow (xOf X) cy cn mb κ b := by
  unfold kernelRowArr kernelRow rowSum nbrSum ex
  rw [hL, hC]
  simp only [hN, hM, xOf]

end

/-- The mean of a [4096, 1] array's entries: what the kernel's host tail makes of its output array. -/
def kernelTotalArr (OUT : (⟨2, ![4096, 1]⟩ : Shape).Idx → EReal) : EReal :=
  Ideal.div (∑ b : Fin 4096, OUT (ix2 b 0)) ((4096 : ℝ) : EReal)

/-! ## Literals and index sums the two readings meet -/

/-- The f32 word of 4096.0 denotes the real 4096. -/
theorem ofBits_4096 : Ideal.ofBits .f32 0x45800000#32 = ((4096 : ℝ) : EReal) := by
  simp [Ideal.ofBits, Ideal.ieee, -EReal.coe_mul]; norm_num

/-- The f32 word of -∞ denotes ⊥. -/
theorem ofBits_neg_inf : Ideal.ofBits .f32 0xFF800000#32 = (⊥ : EReal) := by
  simp [Ideal.ofBits, Ideal.ieee]

/-- A sum over the indices of a [n] array is the sum over its coordinate. -/
theorem sum_idx1 {M : Type*} [AddCommMonoid M] {n : Nat} (f : (⟨1, ![n]⟩ : Shape).Idx → M) :
    ∑ j, f j = ∑ b : Fin n, f (ix1 b) := by
  let e : Fin n ≃ (⟨1, ![n]⟩ : Shape).Idx :=
    { toFun := ix1, invFun := fun j => j 0, left_inv := fun _ => rfl, right_inv := fun j => (eq_ix1 j).symm }
  exact (Equiv.sum_comp e f).symm

/-- A sum over the indices of a [n, 1] array is the sum over its rows. -/
theorem sum_idx_col {M : Type*} [AddCommMonoid M] {n : Nat} (f : (⟨2, ![n, 1]⟩ : Shape).Idx → M) :
    ∑ j, f j = ∑ b : Fin n, f (ix2 b 0) := by
  rw [sum_idx2]
  exact Finset.sum_congr rfl (fun a _ => Fin.sum_univ_one _)

/-- A select on a one-bit word is the if on "the word is 1". -/
theorem select_eq_ite {α : Type} (w : BitVec 1) (a b : α) : Scalar.select w a b = if w = 1#1 then a else b := rfl

/-- A one-bit word converted to a float (unsigned) is its flag. -/
theorem uitofp_eq_flag (w : BitVec 1) : FloatOps.uitofp (F := Ideal) .f32 w = flag w := rfl

end Cert.RowLoss

end
-- ==== Proof.TakeAlong.lean ====
/-
  take_along_axis along the class axis, read at an index.

  jnp.take_along_axis(a, idx, axis=1) of a [R, N] array at [R, C] integer indices lowers to: wrap a negative index by N,
  test 0 ≤ idx ≤ N - 1, gather with operand axis 0 batched against the indices' axis 0 and operand axis 1 collapsed and
  addressed by the index word (read signed, clamped into [0, N - 1]), and select the gathered element where the test
  holds, NaN elsewhere.  For an index word w with 0 ≤ w < N (signed) the wrap leaves w alone, the test is 1, and the
  result at (b, k) is a[b, w]: the operand's own row b.
-/
import Idealize.ShloMosaic.PureOps
import Idealize.ShloMosaic.Lib.ValueIdx
import Idealize.ShloMosaic.Lib.ReduceAll

noncomputable section

namespace Cert.TakeAlong

open Idealize.ShloMosaic Idealize.ShloMosaic.ValueIdx

/-! ## The batched gather -/

section Gather
variable {α : Type}

/-- take_along_axis's dimension numbers for an operand [R, N], start indices [R, C, 1] and result [R, C]: operand axis
    0 batched with the indices' axis 0, operand axis 1 collapsed and named by the start index map. -/
abbrev rowTakeDims (R N C : Nat)
    (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- THE BATCHED GATHER READ AT (b, k): the operand's row b at the start index idx[b, k, 0], read signed and clamped
    into [0, N - 1]. -/
theorem gather_rowTake_apply {R N C w : Nat} (hN : 0 < N)
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ w) (y : (⟨2, ![R, C]⟩ : Shape).Idx) :
    Host.gather (rowTakeDims R N C wf) x idx y
      = x (ix2 ⟨(y 0).val, idx2_lt0 y⟩ ⟨min (idx (takeIdx y)).toInt.toNat (N - 1), by omega⟩) := by
  unfold Host.gather
  congr 1
  funext a
  refine Fin.ext ?_
  show (rowTakeDims R N C wf).start y idx a + (rowTakeDims R N C wf).batchCoord y a + (rowTakeDims R N C wf).offCoord y a = _
  have ha : a = (0 : Fin 2) ∨ a = (1 : Fin 2) := by
    rcases a with ⟨v, hv⟩
    have hv2 : v < 2 := hv
    rcases (by omega : v = 0 ∨ v = 1) with rfl | rfl
    · exact Or.inl rfl
    · exact Or.inr rfl
  rcases ha with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  · rw [GatherDims.batchCoord_eq_zero _ _ _ (fun h => absurd (congrArg Fin.val (List.mem_singleton.mp h)) (by simp)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowTakeDims R N C wf).startIndexMap from List.mem_singleton.mpr rfl)]
    have hsi : (rowTakeDims R N C wf).siIdx y ⟨List.idxOf (1 : Fin 2) (rowTakeDims R N C wf).startIndexMap,
        List.idxOf_lt_length_iff.2 (List.mem_singleton.mpr rfl)⟩ = takeIdx y := by
      funext b; refine Fin.ext ?_
      match b with
      | ⟨0, _⟩ => rfl
      | ⟨1, _⟩ => rfl
      | ⟨2, _⟩ => rfl
    rw [hsi]
    rfl

end Gather

/-! ## The in-bounds test reduced over the unit axis -/

/-- A left fold by `and` from 1 over words that are all 1 is 1. -/
theorem foldl_andi_one {ι : Type} (f : ι → BitVec 1) (hf : ∀ n, f n = 1#1) :
    ∀ (l : List ι), l.foldl (fun r n => IntOp.andi r (f n)) 1#1 = 1#1
  | [] => rfl
  | a :: l => by
    show l.foldl (fun r n => IntOp.andi r (f n)) (IntOp.andi 1#1 (f a)) = 1#1
    rw [hf a, show IntOp.andi 1#1 1#1 = 1#1 from by decide]
    exact foldl_andi_one f hf l

/-- A `stablehlo.reduce` by `and` from the constant 1 over an array of 1s is 1 at every result index. -/
theorem reduce_andi_of_all {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl, hinit]
  exact foldl_andi_one x hx _

/-! ## An index word in range -/

theorem ofBool_eq_one (b : Bool) : BitVec.ofBool b = 1#1 ↔ b = true := by cases b <;> decide
theorem andi_eq_one_iff : ∀ (a b : BitVec 1), IntOp.andi a b = 1#1 ↔ a = 1#1 ∧ b = 1#1 := by decide

/-- The word `w` is a class index: 0 ≤ w < 32768, signed. -/
def InRange (w : BitVec 32) : Prop := IntOp.cmpi .sge w 0#32 = 1#1 ∧ IntOp.cmpi .slt w 32768#32 = 1#1

/-- Such a word is not negative, so the wrap `select (w < 0) (w + 32768) w` leaves it alone. -/
theorem InRange.not_neg {w : BitVec 32} (h : InRange w) : IntOp.cmpi .slt w 0#32 = 0#1 := by
  obtain ⟨h0, h1⟩ := h
  unfold IntOp.cmpi at h0 h1 ⊢
  rw [ofBool_eq_one] at h0 h1
  simp only [BitVec.slt, BitVec.sle, decide_eq_true_eq] at h0 h1 ⊢
  have e : (0#32 : BitVec 32).toInt = 0 := by decide
  rw [e] at h0
  have hn : ¬ w.toInt < 0 := by omega
  simp [hn]

/-- It passes the gather's lower test. -/
theorem InRange.ge_zero {w : BitVec 32} (h : InRange w) : IntOp.cmpi .sge w 0#32 = 1#1 := h.1

/-- It passes the gather's upper test `w ≤ 32767`. -/
theorem InRange.le_max {w : BitVec 32} (h : InRange w) : IntOp.cmpi .sle w 32767#32 = 1#1 := by
  obtain ⟨h0, h1⟩ := h
  unfold IntOp.cmpi at h0 h1 ⊢
  rw [ofBool_eq_one] at h0 h1 ⊢
  simp only [BitVec.slt, BitVec.sle, decide_eq_true_eq] at h0 h1 ⊢
  have e1 : (32768#32 : BitVec 32).toInt = 32768 := by decide
  have e2 : (32767#32 : BitVec 32).toInt = 32767 := by decide
  rw [e1] at h1; rw [e2]; omega

end Cert.TakeAlong

end
-- ==== Proof.PreDecode.lean ====
/-
  The precondition, read back: every logit is a real number, and every label and every neighbour entry is a class
  index, 0 ≤ w < 32768 (signed).

  The printed predicate is the conjunction of three reductions by "and" to a scalar: |x| < +∞ over the logits,
  (y ≥ 0) ∧ (y < 32768) over the labels, the same over the neighbour table. A conjunction of one-bit words that is 1 has
  both words 1; a reduction by "and" that is 1 met only 1s; an extended real whose absolute value max x (-x) is below
  +∞ is neither +∞ nor -∞.
-/
import proofs.«131098_j61297773248742_2_alg».proof.Pre_finite_inputs
import proofs.«131098_j61297773248742_2_alg».proof.Proof.TakeAlong
import Idealize.ShloMosaic.PureOps.Ideal
import Idealize.ShloMosaic.Lib.ReduceAll
import Idealize.ShloMosaic.Lib.ValueIdx

noncomputable section

namespace Cert.PreDecode

open Idealize.ShloMosaic Idealize.ShloMosaic.ValueIdx Cert.Pre_finite_inputs

variable [Cert.Pre_finite_inputs.Facts]

/-- A rank-0 array has one index. -/
instance : Subsingleton S_.Idx := ⟨fun a b => funext fun d => d.elim0⟩

/-- The f32 word of +∞ denotes ⊤. -/
theorem ofBits_pos_inf : Ideal.ofBits .f32 0x7F800000#32 = (⊤ : EReal) := by
  simp [Ideal.ofBits, Ideal.ieee]

/-- An extended real with max v (-v) < +∞ is a real number. -/
theorem real_of_abs_lt_top (v : EReal) (h : max v (-v) < ⊤) : ∃ r : ℝ, v = (r : EReal) := by
  rw [max_lt_iff] at h
  obtain ⟨h1, h2⟩ := h
  induction v using EReal.rec with
  | bot => simp at h2
  | coe r => exact ⟨r, rfl⟩
  | top => simp at h1

/-- THE PRECONDITION DECODED. -/
theorem decode (x0 : FVec Ideal S4096x32768 .f32) (x1 : IVec S4096 32) (x2 : IVec S32768 32) (x3 : IVec S8192x64 32)
    (x4 : IVec S8192x64 1) (h : fn (F := Ideal) x0 x1 x2 x3 x4 = fun _ => 1#1) :
    (∀ i, ∃ r : ℝ, x0 i = (r : EReal)) ∧ (∀ i, Cert.TakeAlong.InRange (x1 i)) ∧ (∀ i, Cert.TakeAlong.InRange (x3 i)) := by
  have e := congrFun h ix0
  dsimp only [fn, fn_part1] at e
  change IntOp.andi (IntOp.andi _ _) _ = 1#1 at e
  obtain ⟨hAB, hC⟩ := IntOp.andi_eq_one.1 e
  obtain ⟨hA, hB⟩ := IntOp.andi_eq_one.1 hAB
  refine ⟨fun i => ?_, fun i => ?_, fun i => ?_⟩
  · have hi := Host.reduce_andi_all _ _ _ _ _ hA i
    change Ideal.cmp .olt (max (x0 i) (-(x0 i))) (Ideal.ofBits .f32 0x7F800000#32) = 1#1 at hi
    rw [ofBits_pos_inf] at hi
    change BitVec.ofBool (decide (max (x0 i) (-(x0 i)) < ⊤)) = 1#1 at hi
    rw [Cert.TakeAlong.ofBool_eq_one, decide_eq_true_eq] at hi
    exact real_of_abs_lt_top _ hi
  · have hi := Host.reduce_andi_all _ _ _ _ _ hB i
    change IntOp.andi (IntOp.cmpi .sge (x1 i) 0#32) (IntOp.cmpi .slt (x1 i) 32768#32) = 1#1 at hi
    exact IntOp.andi_eq_one.1 hi
  · have hi := Host.reduce_andi_all _ _ _ _ _ hC i
    change IntOp.andi (IntOp.cmpi .sge (x3 i) 0#32) (IntOp.cmpi .slt (x3 i) 32768#32) = 1#1 at hi
    exact IntOp.andi_eq_one.1 hi

end Cert.PreDecode

end
-- ==== Proof.KernelPayload.lean ====
/-
  The kernel body's stored value, read at a row.

  The body loads a block of 64 rows of logits x0 (64 x 32768), the rows' label logits x1 (64 x 1), neighbour logits x2
  and float mask x3 (64 x 64), and float cluster flags x4 (64 x 1), and stores a 64 x 1 column.  With m_r the maximum
  of row r of x0 (the fold of max from -∞ over the 32768 classes), entry (r, 0) of the stored column is

      log (Σ_c exp (x0[r,c] - m_r)) - log (exp (x1[r,0] - m_r) + x4[r,0] · Σ_k exp (x2[r,k] - m_r) · x3[r,k]).

  Every operation of the body is pointwise except: the two kinds of reduction along the class / slot axis (a sum is
  the Fin-indexed sum over that axis, a maximum the fold of max from the accumulator's value -∞), the cast of a
  64-vector to a 64 x 1 column (entry (r, 0) is entry r), the spreading of a 64 x 1 column along a row (entry (r, c)
  is entry (r, 0)), and casts of a shape to itself (the identity).  Row r of the result depends on row r of each
  block only.
-/
import proofs.«131098_j61297773248742_2_alg».proof.Proof.Gen.KernelIdeal.Skeleton
import proofs.«131098_j61297773248742_2_alg».proof.Proof.RowLoss
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region

open Cert.KernelIdeal Cert.KernelIdeal.Gen Idealize.ShloMosaic Idealize.ShloMosaic.ValueIdx

/-! ## Two layout operations at an index: a vector made a column, a column spread along rows -/

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reductions along the second axis, at a row -/

/-- Row r of a 64 x 32768 block with class c inserted is the index (r, c). -/
theorem lift_cls (h : S64x32768.Reduces [1] S64) (r : Fin 64) (c : Fin 32768) : h.lift (ix1 r) c = ix2 r c := by
  funext a
  apply Fin.ext
  match a with
  | ⟨0, _⟩ => rfl
  | ⟨1, _⟩ => rfl

/-- Row r of a 64 x 64 block with slot k inserted is the index (r, k). -/
theorem lift_slot (h : S64x64.Reduces [1] S64) (r : Fin 64) (k : Fin 64) : h.lift (ix1 r) k = ix2 r k := by
  funext a
  apply Fin.ext
  match a with
  | ⟨0, _⟩ => rfl
  | ⟨1, _⟩ => rfl

/-- A block's row maximum: the fold of max from -∞ over the row's 32768 classes. -/
abbrev blockRowMax (x0 : Vec Ideal S64x32768 .f32) (r : Fin 64) : EReal :=
  (Finset.univ : Finset (Fin 32768)).fold max (⊥ : EReal) (fun c => x0 (ix2 r c))

/-- The maximum-reduction of a 64 x 32768 block along the class axis, from the word of -∞, at row r. -/
theorem rowmax_apply (x0 : FVec Ideal S64x32768 .f32) (r : Fin 64) :
    multiReduction (F := Ideal) .maximumf [1] S64 x0 0xFF800000#32 reduces_S64x32768_S64 (.inl rfl) rfl (ix1 r)
      = blockRowMax x0 r :=
  (Ideal.multiReduction_maximumf_single x0 0xFF800000#32 reduces_S64x32768_S64 (.inl rfl) rfl (ix1 r)).trans (by
    rw [Ideal.ofBits_def, Cert.RowLoss.ofBits_neg_inf]
    exact congrArg (fun f => (Finset.univ : Finset (Fin 32768)).fold max (⊥ : EReal) f)
      (funext fun c => congrArg x0 (lift_cls reduces_S64x32768_S64 r c)))

/-- The sum-reduction of a 64 x 32768 block along the class axis, from the zero word, at row r. -/
theorem clssum_apply (v : FVec Ideal S64x32768 .f32) (r : Fin 64) :
    multiReduction (F := Ideal) .add [1] S64 v 0x00000000#32 reduces_S64x32768_S64 (.inl rfl) rfl (ix1 r)
      = ∑ c : Fin 32768, v (ix2 r c) :=
  (Ideal.multiReduction_add_single v 0x00000000#32 reduces_S64x32768_S64 (.inl rfl) rfl (ix1 r)).trans
    (Finset.sum_congr rfl fun c _ => congrArg v (lift_cls reduces_S64x32768_S64 r c))

/-- The sum-reduction of a 64 x 64 block along the slot axis, from the zero word, at row r. -/
theorem slotsum_apply (v : FVec Ideal S64x64 .f32) (r : Fin 64) :
    multiReduction (F := Ideal) .add [1] S64 v 0x00000000#32 reduces_S64x64_S64 (.inl rfl) rfl (ix1 r)
      = ∑ k : Fin 64, v (ix2 r k) :=
  (Ideal.multiReduction_add_single v 0x00000000#32 reduces_S64x64_S64 (.inl rfl) rfl (ix1 r)).trans
    (Finset.sum_congr rfl fun k _ => congrArg v (lift_slot reduces_S64x64_S64 r k))

/-! ## The body's intermediate values -/

/-- The rows' maxima as a 64 x 1 column. -/
abbrev maxCol (x0 : Vec Ideal S64x32768 .f32) : FVec Ideal S64x1 .f32 :=
  shapeCast S64x1 (multiReduction (F := Ideal) .maximumf [1] S64 x0 0xFF800000#32 reduces_S64x32768_S64 (.inl rfl) rfl)
    shapeCasts_S64_S64x1

/-- Entry (r, u) of the column of maxima is row r's maximum. -/
theorem maxCol_apply (x0 : Vec Ideal S64x32768 .f32) (r : Fin 64) (u : Fin 1) :
    maxCol x0 (ix2 r u) = blockRowMax x0 r :=
  (shapeCast_a_a1_apply _ shapeCasts_S64_S64x1 r u).trans (rowmax_apply x0 r)

/-- The column of Σ_c exp (x0[r,c] - m_r), at row r. -/
theorem sumExp_apply (x0 : Vec Ideal S64x32768 .f32) (r : Fin 64) (u : Fin 1) :
    shapeCast S64x1
        (multiReduction (F := Ideal) .add [1] S64
          (exp (subf x0 (broadcastTo S64x32768 (maxCol x0) broadcasts_S64x1_S64x32768)))
          0x00000000#32 reduces_S64x32768_S64 (.inl rfl) rfl)
        shapeCasts_S64_S64x1 (ix2 r u)
      = ∑ c : Fin 32768, Ideal.exp (x0 (ix2 r c) - blockRowMax x0 r) := by
  refine (shapeCast_a_a1_apply _ shapeCasts_S64_S64x1 r u).trans ?_
  refine (clssum_apply _ r).trans ?_
  refine Finset.sum_congr rfl fun c _ => ?_
  exact congrArg (fun z : EReal => Ideal.exp (x0 (ix2 r c) - z))
    ((broadcastTo_a1_ab_apply (maxCol x0) broadcasts_S64x1_S64x32768 r c).trans (maxCol_apply x0 r 0))

/-- The column of Σ_k exp (x2[r,k] - m_r) · x3[r,k], at row r. -/
theorem sumNbr_apply (x0 : Vec Ideal S64x32768 .f32) (x2 x3 : Vec Ideal S64x64 .f32) (r : Fin 64) (u : Fin 1) :
    shapeCast S64x1
        (multiReduction (F := Ideal) .add [1] S64
          (mulf (exp (subf (shapeCast S64x64 x2 shapeCasts_S64x64_S64x64)
              (broadcastTo S64x64 (maxCol x0) broadcasts_S64x1_S64x64)))
            (shapeCast S64x64 x3 shapeCasts_S64x64_S64x64))
          0x00000000#32 reduces_S64x64_S64 (.inl rfl) rfl)
        shapeCasts_S64_S64x1 (ix2 r u)
      = ∑ k : Fin 64, Ideal.exp (x2 (ix2 r k) - blockRowMax x0 r) * x3 (ix2 r k) := by
  refine (shapeCast_a_a1_apply _ shapeCasts_S64_S64x1 r u).trans ?_
  refine (slotsum_apply _ r).trans ?_
  refine Finset.sum_congr rfl fun k _ => ?_
  have e2 : shapeCast S64x64 x2 shapeCasts_S64x64_S64x64 = x2 := shapeCast_self x2 _
  have e3 : shapeCast S64x64 x3 shapeCasts_S64x64_S64x64 = x3 := shapeCast_self x3 _
  have eb : broadcastTo S64x64 (maxCol x0) broadcasts_S64x1_S64x64 (ix2 r k) = blockRowMax x0 r :=
    (broadcastTo_a1_ab_apply (maxCol x0) broadcasts_S64x1_S64x64 r k).trans (maxCol_apply x0 r 0)
  show Ideal.exp (shapeCast S64x64 x2 shapeCasts_S64x64_S64x64 (ix2 r k)
        - broadcastTo S64x64 (maxCol x0) broadcasts_S64x1_S64x64 (ix2 r k))
      * shapeCast S64x64 x3 shapeCasts_S64x64_S64x64 (ix2 r k) = _
  rw [e2, e3, eb]

/-- The label term exp (x1[r,0] - m_r), at row r. -/
theorem labExp_apply (x0 : Vec Ideal S64x32768 .f32) (x1 : Vec Ideal S64x1 .f32) (r : Fin 64) (u : Fin 1) :
    exp (subf (shapeCast S64x1 x1 shapeCasts_S64x1_S64x1) (maxCol x0)) (ix2 r u)
      = Ideal.exp (x1 (ix2 r u) - blockRowMax x0 r) := by
  have e1 : shapeCast S64x1 x1 shapeCasts_S64x1_S64x1 = x1 := shapeCast_self x1 _
  show Ideal.exp (shapeCast S64x1 x1 shapeCasts_S64x1_S64x1 (ix2 r u) - maxCol x0 (ix2 r u)) = _
  rw [e1, maxCol_apply]

/-! ## The stored value at a row -/

/-- The column of Σ_c exp (x0[r,c] - m_r). -/
abbrev sumExpCol (x0 : Vec Ideal S64x32768 .f32) : FVec Ideal S64x1 .f32 :=
  shapeCast S64x1
    (multiReduction (F := Ideal) .add [1] S64
      (exp (subf x0 (broadcastTo S64x32768 (maxCol x0) broadcasts_S64x1_S64x32768)))
      0x00000000#32 reduces_S64x32768_S64 (.inl rfl) rfl)
    shapeCasts_S64_S64x1

/-- The column of Σ_k exp (x2[r,k] - m_r) · x3[r,k]. -/
abbrev sumNbrCol (x0 : Vec Ideal S64x32768 .f32) (x2 x3 : Vec Ideal S64x64 .f32) : FVec Ideal S64x1 .f32 :=
  shapeCast S64x1
    (multiReduction (F := Ideal) .add [1] S64
      (mulf (exp (subf (shapeCast S64x64 x2 shapeCasts_S64x64_S64x64)
          (broadcastTo S64x64 (maxCol x0) broadcasts_S64x1_S64x64)))
        (shapeCast S64x64 x3 shapeCasts_S64x64_S64x64))
      0x00000000#32 reduces_S64x64_S64 (.inl rfl) rfl)
    shapeCasts_S64_S64x1

/-- The column under the second logarithm: exp (x1 - m) + x4 · Σ_k …. -/
abbrev denCol (x0 : Vec Ideal S64x32768 .f32) (x1 : Vec Ideal S64x1 .f32) (x2 x3 : Vec Ideal S64x64 .f32)
    (x4 : Vec Ideal S64x1 .f32) : FVec Ideal S64x1 .f32 :=
  addf (exp (subf (shapeCast S64x1 x1 shapeCasts_S64x1_S64x1) (maxCol x0)))
    (mulf (shapeCast S64x1 x4 shapeCasts_S64x1_S64x1) (sumNbrCol x0 x2 x3))

/-- The stored column is the difference of the two logarithms' columns (the body's operations, named). -/
theorem pay_eq (x0 : Vec Ideal S64x32768 .f32) (x1 : Vec Ideal S64x1 .f32) (x2 x3 : Vec Ideal S64x64 .f32)
    (x4 : Vec Ideal S64x1 .f32) :
    Gen.k0_pay1 x0 x0 x1 x2 x3 x4 = subf (log (sumExpCol x0)) (log (denCol x0 x1 x2 x3 x4)) := rfl

/-- A difference of logarithms of two columns, at an index. -/
theorem sub_log_apply {s : Shape} (A B : FVec Ideal s .f32) (i : s.Idx) :
    subf (log A) (log B) i = Ideal.log (A i) - Ideal.log (B i) := rfl

/-- A sum of a column and a product of two columns, at an index. -/
theorem add_mul_apply {s : Shape} (A B C : FVec Ideal s .f32) (i : s.Idx) :
    addf A (mulf B C) i = A i + B i * C i := rfl

/-- THE PAYLOAD AT A ROW: entry (r, 0) of what the body stores is
    log Σ_c exp (x0[r,c] - m_r) - log (exp (x1[r,0] - m_r) + x4[r,0] · Σ_k exp (x2[r,k] - m_r) · x3[r,k]),
    with m_r the maximum of row r of x0. -/
theorem pay_apply (x0 : Vec Ideal S64x32768 .f32) (x1 : Vec Ideal S64x1 .f32) (x2 x3 : Vec Ideal S64x64 .f32)
    (x4 : Vec Ideal S64x1 .f32) (r : Fin 64) :
    Gen.k0_pay1 x0 x0 x1 x2 x3 x4 (ix2 r 0)
      = Ideal.log (∑ c : Fin 32768, Ideal.exp (x0 (ix2 r c) - blockRowMax x0 r))
        - Ideal.log (Ideal.exp (x1 (ix2 r 0) - blockRowMax x0 r)
            + x4 (ix2 r 0) * ∑ k : Fin 64, Ideal.exp (x2 (ix2 r k) - blockRowMax x0 r) * x3 (ix2 r k)) := by
  have e4 : shapeCast S64x1 x4 shapeCasts_S64x1_S64x1 = x4 := shapeCast_self x4 _
  have hS : sumExpCol x0 (ix2 r 0) = ∑ c : Fin 32768, Ideal.exp (x0 (ix2 r c) - blockRowMax x0 r) :=
    sumExp_apply x0 r 0
  have hT : denCol x0 x1 x2 x3 x4 (ix2 r 0)
      = Ideal.exp (x1 (ix2 r 0) - blockRowMax x0 r)
        + x4 (ix2 r 0) * ∑ k : Fin 64, Ideal.exp (x2 (ix2 r k) - blockRowMax x0 r) * x3 (ix2 r k) := by
    have hN : sumNbrCol x0 x2 x3 (ix2 r 0)
        = ∑ k : Fin 64, Ideal.exp (x2 (ix2 r k) - blockRowMax x0 r) * x3 (ix2 r k) := sumNbr_apply x0 x2 x3 r 0
    refine (add_mul_apply _ _ _ (ix2 r 0)).trans ?_
    rw [labExp_apply x0 x1 r 0, hN, e4]
  refine (congrFun (pay_eq x0 x1 x2 x3 x4) (ix2 r 0)).trans ?_
  refine (sub_log_apply _ _ (ix2 r 0)).trans ?_
  rw [hS, hT]

/-! ## The stored value at a row, over the staged arrays -/

/-- Where row r of the five blocks is row b of the five staged arrays, entry (r, 0) of what the body stores is the
    kernel's row term of the arrays at row b. -/
theorem block_row (X : (⟨2, ![4096, 32768]⟩ : Shape).Idx → EReal) (XL : (⟨2, ![4096, 1]⟩ : Shape).Idx → EReal)
    (XN MK : (⟨2, ![4096, 64]⟩ : Shape).Idx → EReal) (IC : (⟨2, ![4096, 1]⟩ : Shape).Idx → EReal)
    (x0 : Vec Ideal S64x32768 .f32) (x1 : Vec Ideal S64x1 .f32) (x2 x3 : Vec Ideal S64x64 .f32)
    (x4 : Vec Ideal S64x1 .f32) (b : Fin 4096) (r : Fin 64)
    (h0 : ∀ c : Fin 32768, x0 (ix2 r c) = X (ix2 b c)) (h1 : x1 (ix2 r 0) = XL (ix2 b 0))
    (h2 : ∀ k : Fin 64, x2 (ix2 r k) = XN (ix2 b k)) (h3 : ∀ k : Fin 64, x3 (ix2 r k) = MK (ix2 b k))
    (h4 : x4 (ix2 r 0) = IC (ix2 b 0)) :
    Gen.k0_pay1 x0 x0 x1 x2 x3 x4 (ix2 r 0) = Cert.RowLoss.kernelRowArr X XL XN MK IC b := by
  rw [pay_apply]
  unfold Cert.RowLoss.kernelRowArr Cert.RowLoss.rowMax Cert.RowLoss.xOf blockRowMax
  simp only [h0, h1, h2, h3, h4]

end Cert.KernelIdeal.Region

end
-- ==== Proof.KernelRegion.lean ====
/-
  From the kernel's blocks to its output array, and from the output array to the program's result.

  The region's grid has 64 points; at point t each of the six windows is at block (t, 0) of its array, so the block
  of every window holds rows 64·t … 64·t + 63 of its array (all columns).  Row r of the body's stored column is the
  kernel's row term of rows r of the five input blocks, that is of row 64·t + r of the five staged arrays; the 64
  output blocks tile the [4096, 1] output array (row b lies in block b / 64), so the array ends holding the row term
  of every row.  The two host operations after the region sum that array from zero and divide by 4096: its mean.
-/
import proofs.«131098_j61297773248742_2_alg».proof.Proof.Gen.KernelIdeal.Frame
import proofs.«131098_j61297773248742_2_alg».proof.Proof.RowLoss
import proofs.«131098_j61297773248742_2_alg».proof.Proof.KernelPayload
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.Region

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

/-! ## Where the windows are at a point -/

theorem zero_off : (![0, 0] : Fin 2 → Nat) = fun _ => 0 := funext fun a => by fin_cases a <;> rfl

/-- The printed index maps, decided over the grid: at point t every window is at block (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## Each input block as rows of its array -/

/-- Row r, class q of the logits' block at point t is row b = 64·t + r, class q of the logits. -/
theorem iblk0_apply (c : Dev nD) (t : Fin cfg0.N) (r : Fin 64) (q : Fin 32768) (b : Fin 4096)
    (hb : b.val = 64 * t.val + r.val) :
    (iblk m c 0 t : Vec Ideal S64x32768 .f32) (ix2 r q) = (V m c main_arg0 : S4096x32768.Idx → EReal) (ix2 b q) := by
  obtain ⟨e0, e1, -⟩ := idx_facts t
  unfold iblk
  rw [View.read_apply]
  show (V m c main_arg0 : S4096x32768.Idx → EReal) _ = (V m c main_arg0 : S4096x32768.Idx → EReal) _
  refine congrArg _ (funext fun a => Fin.ext ?_)
  match a with
  | ⟨0, _⟩ => show win0_0.index t (0 : Fin 2) * 64 + 1 * r.val = b.val; omega
  | ⟨1, _⟩ => show win0_0.index t (1 : Fin 2) * 32768 + 1 * q.val = q.val; omega

/-- Row r of the label logits' block at point t is row b = 64·t + r of the label logits. -/
theorem iblk1_apply (c : Dev nD) (t : Fin cfg0.N) (r : Fin 64) (u : Fin 1) (b : Fin 4096)
    (hb : b.val = 64 * t.val + r.val) :
    (iblk m c 1 t : Vec Ideal S64x1 .f32) (ix2 r u) = (V m c main_v25 : S4096x1.Idx → EReal) (ix2 b u) := by
  obtain ⟨-, -, e0, e1, -⟩ := idx_facts t
  unfold iblk
  rw [View.read_apply]
  show (V m c main_v25 : S4096x1.Idx → EReal) _ = (V m c main_v25 : S4096x1.Idx → EReal) _
  refine congrArg _ (funext fun a => Fin.ext ?_)
  match a with
  | ⟨0, _⟩ => show win0_1.index t (0 : Fin 2) * 64 + 1 * r.val = b.val; omega
  | ⟨1, _⟩ => show win0_1.index t (1 : Fin 2) * 1 + 1 * u.val = u.val; omega

/-- Row r, slot k of the neighbour logits' block at point t is row b = 64·t + r, slot k of the neighbour logits. -/
theorem iblk2_apply (c : Dev nD) (t : Fin cfg0.N) (r : Fin 64) (k : Fin 64) (b : Fin 4096)
    (hb : b.val = 64 * t.val + r.val) :
    (iblk m c 2 t : Vec Ideal S64x64 .f32) (ix2 r k) = (V m c main_v26 : S4096x64.Idx → EReal) (ix2 b k) := by
  obtain ⟨-, -, -, -, e0, e1, -⟩ := idx_facts t
  unfold iblk
  rw [View.read_apply]
  show (V m c main_v26 : S4096x64.Idx → EReal) _ = (V m c main_v26 : S4096x64.Idx → EReal) _
  refine congrArg _ (funext fun a => Fin.ext ?_)
  match a with
  | ⟨0, _⟩ => show win0_2.index t (0 : Fin 2) * 64 + 1 * r.val = b.val; omega
  | ⟨1, _⟩ => show win0_2.index t (1 : Fin 2) * 64 + 1 * k.val = k.val; omega

/-- Row r, slot k of the mask's block at point t is row b = 64·t + r, slot k of the mask. -/
theorem iblk3_apply (c : Dev nD) (t : Fin cfg0.N) (r : Fin 64) (k : Fin 64) (b : Fin 4096)
    (hb : b.val = 64 * t.val + r.val) :
    (iblk m c 3 t : Vec Ideal S64x64 .f32) (ix2 r k) = (V m c main_v27 : S4096x64.Idx → EReal) (ix2 b k) := by
  obtain ⟨-, -, -, -, -, -, e0, e1, -⟩ := idx_facts t
  unfold iblk
  rw [View.read_apply]
  show (V m c main_v27 : S4096x64.Idx → EReal) _ = (V m c main_v27 : S4096x64.Idx → EReal) _
  refine congrArg _ (funext fun a => Fin.ext ?_)
  match a with
  | ⟨0, _⟩ => show win0_3.index t (0 : Fin 2) * 64 + 1 * r.val = b.val; omega
  | ⟨1, _⟩ => show win0_3.index t (1 : Fin 2) * 64 + 1 * k.val = k.val; omega

/-- Row r of the cluster flags' block at point t is row b = 64·t + r of the cluster flags. -/
theorem iblk4_apply (c : Dev nD) (t : Fin cfg0.N) (r : Fin 64) (u : Fin 1) (b : Fin 4096)
    (hb : b.val = 64 * t.val + r.val) :
    (iblk m c 4 t : Vec Ideal S64x1 .f32) (ix2 r u) = (V m c main_v29 : S4096x1.Idx → EReal) (ix2 b u) := by
  obtain ⟨-, -, -, -, -, -, -, -, e0, e1, -⟩ := idx_facts t
  unfold iblk
  rw [View.read_apply]
  show (V m c main_v29 : S4096x1.Idx → EReal) _ = (V m c main_v29 : S4096x1.Idx → EReal) _
  refine congrArg _ (funext fun a => Fin.ext ?_)
  match a with
  | ⟨0, _⟩ => show win0_4.index t (0 : Fin 2) * 64 + 1 * r.val = b.val; omega
  | ⟨1, _⟩ => show win0_4.index t (1 : Fin 2) * 1 + 1 * u.val = u.val; omega

/-! ## What a point writes back, and the output array -/

/-- The region's output array as one function of the five staged arrays: the kernel's row term, row by row. -/
abbrev outArr (c : Dev nD) : S4096x1.Idx → EReal :=
  Cert.RowLoss.kernelOut (V m c main_arg0) (V m c main_v25) (V m c main_v26) (V m c main_v27) (V m c main_v29)

/-- WHAT POINT t WRITES BACK is block t of the row terms: row r of the stored column is the row term of rows r of
    the input blocks, which are rows 64·t + r of the staged arrays, and block t's row r is the array's row 64·t + r. -/
theorem flushed5_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5]
  unfold Gen.out0_5
  rw [View.canon_unit_zero zero_off]
  simp only [View.ld_unit_zero (S := S64x32768) zero_off, View.ld_unit_zero (S := S64x1) zero_off,
    View.ld_unit_zero (S := S64x64) zero_off]
  refine funext fun (j : S64x1.Idx) => ?_
  obtain ⟨r, u, rfl⟩ : ∃ (r : Fin 64) (u : Fin 1), j = ix2 r u := ⟨j 0, j 1, eq_ix2 j⟩
  obtain rfl : u = 0 := Fin.eq_zero u
  obtain ⟨-, -, -, -, -, -, -, -, -, -, e0, e1⟩ := idx_facts t
  have hN : cfg0.N = 64 := N_0
  have ht : t.val < 64 := lt_of_lt_of_eq t.isLt hN
  have hb : 64 * t.val + r.val < 4096 := by have := r.isLt; omega
  rw [View.read_apply]
  refine (block_row (V m c main_arg0) (V m c main_v25) (V m c main_v26) (V m c main_v27) (V m c main_v29)
    (iblk m c 0 t) (iblk m c 1 t) (iblk m c 2 t) (iblk m c 3 t) (iblk m c 4 t) ⟨64 * t.val + r.val, hb⟩ r
    (fun q => iblk0_apply m c t r q ⟨64 * t.val + r.val, hb⟩ rfl)
    (iblk1_apply m c t r 0 ⟨64 * t.val + r.val, hb⟩ rfl)
    (fun k => iblk2_apply m c t r k ⟨64 * t.val + r.val, hb⟩ rfl)
    (fun k => iblk3_apply m c t r k ⟨64 * t.val + r.val, hb⟩ rfl)
    (iblk4_apply m c t r 0 ⟨64 * t.val + r.val, hb⟩ rfl)).trans ?_
  exact congrArg (Cert.RowLoss.kernelRowArr (V m c main_arg0) (V m c main_v25) (V m c main_v26) (V m c main_v27) (V m c main_v29))
    (Fin.ext (by show 64 * t.val + r.val = win0_5.index t (0 : Fin 2) * 64 + 1 * r.val; omega))

/-- An index of the output array is in point t's block iff each coordinate is in the block's range on its axis. -/
theorem mem_blk5 (t : Fin cfg0.N) (i : S4096x1.Idx) :
    i ∈ ((cfg0.win 5).blk t).view.set ↔ ∀ a : Fin 2, win0_5.index t a * S64x1.size a ≤ (i a).val
      ∧ (i a).val < win0_5.index t a * S64x1.size a + S64x1.size a := by
  show i ∈ ((View.whole main_v30).slice (win0_5.rect t)).set ↔ _
  rw [View.set_slice_whole, Rect.mem_set_unit]
  exact Iff.rfl

/-- THE COVER: row b of the output array lies in the block of point b / 64. -/
theorem cover5 (i : S4096x1.Idx) :
    ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 64 := N_0
  obtain ⟨t, ht⟩ : ∃ t : Fin cfg0.N, t.val = (i 0).val / 64 :=
    ⟨⟨(i 0).val / 64, lt_of_lt_of_eq (by omega : (i 0).val / 64 < 64) hN.symm⟩, rfl⟩
  obtain ⟨-, -, -, -, -, -, -, -, -, -, e0, e1⟩ := idx_facts t
  refine ⟨t, flush0_5 t, ?_⟩
  rw [mem_blk5]
  intro a
  match a with
  | ⟨0, _⟩ =>
    show win0_5.index t (0 : Fin 2) * 64 ≤ (i 0).val ∧ (i 0).val < win0_5.index t (0 : Fin 2) * 64 + 64
    omega
  | ⟨1, _⟩ =>
    show win0_5.index t (1 : Fin 2) * 1 ≤ (i 1).val ∧ (i 1).val < win0_5.index t (1 : Fin 2) * 1 + 1
    omega

/-- THE OUTPUT ARRAY after the run: the kernel's row term of the five staged arrays, at every row. -/
theorem final5 (c : Dev nD) :
    (Gen.dats m 0 c).arrAt 5 cfg0.N
      = Cert.RowLoss.kernelOut (V m c main_arg0) (V m c main_v25) (V m c main_v26) (V m c main_v27) (V m c main_v29) :=
  (Gen.dats m 0 c).arrAt_eq_of_cover 5 (outArr m c) (fun t _ => flushed5_eq m c t) cover5

/-! ## The host tail: the output array's mean -/

/-- The two host operations after the region, on a [4096, 1] array: the sum of every entry from the zero word,
    divided by the word of 4096.0 — the mean of the array's 4096 rows. -/
theorem tail_value (OUT : FVec Ideal S4096x1 .f32) :
    Host.divf (F := Ideal)
        (Host.reduceAdd (F := Ideal) OUT (constant (F := Ideal) S_ .f32 0x00000000#32) reducesTo_S4096x1_S_d0_1 h_S_)
        (constant (F := Ideal) S_ .f32 0x45800000#32)
      = fun _ => Cert.RowLoss.kernelTotalArr OUT := by
  funext i
  show Ideal.div (Ideal.hostReduceAdd reducesTo_S4096x1_S_d0_1 OUT (Ideal.ofBits .f32 0x00000000#32) i)
      (Ideal.ofBits .f32 0x45800000#32) = _
  rw [Ideal.hostReduceAdd_total reducesTo_S4096x1_S_d0_1 (fun b => b.elim0), Ideal.ofBits_zero_f32, zero_add,
    Cert.RowLoss.ofBits_4096, Cert.RowLoss.sum_idx_col]
  rfl

/-- What the result buffer holds after the host tail: the mean of the region's output array. -/
theorem tail_v32 (c : Dev nD) :
    Pipeline.afterTail₀ cfgs (Gen.dats m) 0 (Gen.V0 m) [hostOps1] c main_v32
      = fun _ => Cert.RowLoss.kernelTotalArr ((Gen.dats m 0 c).arrAt 5 cfg0.N) := by
  unfold Pipeline.afterTail₀
  show StableHlo.after hostOps1 _ (Proc.devRef .tc main_v32) = _
  after_results
  have e : Pipeline.withArrays spec0 c (Gen.V0 m c) (fun w => (Gen.dats m 0 c).arrAt w cfg0.N) (Proc.devRef .tc main_v30)
      = (Gen.dats m 0 c).arrAt 5 cfg0.N := Pipeline.withArrays_arr spec0 launch0.win.arr_inj c _ _ 5
  rw [e]
  exact tail_value _

/-! ## The run -/

/-- THE RUN, READ: every fair execution of @main ends with the result buffer at the mean of the region's output
    array and the five argument arrays as launched. -/
theorem kernel_run : θ_run defs (onTc (τ := τ) (main (F := Ideal))) ⟨m, fun _ => 0, ρ⟩ (fun r => ∀ c : Dev nD,
      r.2.mem ((c.tc : Thread nD τ).loc main_v32) = (fun _ => Cert.RowLoss.kernelTotalArr ((Gen.dats m 0 c).arrAt 5 cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v32 (Pipeline.mem_restRefs_of main_v32 (by decide) (by decide))).trans (tail_v32 m c),
      ((h c).1 0).trans (((Gen.dats m 0 c).arrAt_in 0 rfl _).trans ((Gen.A_eq m c 0).trans (Gen.V_main_arg0 m c))),
      (((h c).2 main_arg1 (Pipeline.mem_restRefs_of main_arg1 (by decide) (by decide))).trans (Gen.W_main_arg1 m (Gen.dats m) c)),
      (((h c).2 main_arg2 (Pipeline.mem_restRefs_of main_arg2 (by decide) (by decide))).trans (Gen.W_main_arg2 m (Gen.dats m) c)),
      (((h c).2 main_arg3 (Pipeline.mem_restRefs_of main_arg3 (by decide) (by decide))).trans (Gen.W_main_arg3 m (Gen.dats m) c)),
      (((h c).2 main_arg4 (Pipeline.mem_restRefs_of main_arg4 (by decide) (by decide))).trans (Gen.W_main_arg4 m (Gen.dats m) c))⟩)
    (Gen.run_main m ρ)

end Cert.KernelIdeal.Region

end
-- ==== Proof.KernelPrelude.lean ====
/-
  The four small arrays the host computes before the kernel's region, read at an index.

  From the labels y[b], the position table, the neighbour table and its mask the host prepares, for each row b:
    the label's logit          x[b, y[b]]                         ([4096, 1]),
    the neighbours' logits     x[b, nbr[b, k]]                    ([4096, 64]),
    the float neighbour mask   1.0 or 0.0 from the bit msk[b, k]  ([4096, 64]),
    the float cluster flag     1.0 or 0.0 from position[y[b]] ≥ 0 ([4096, 1]),
  where nbr and msk are the rows of the two tables at the labels' table rows.  The two logit arrays come from
  take_along_axis along the class axis; for index words in [0, 32768) its wrap leaves the index alone, its bounds
  test holds, and the batched gather reads the operand's own row at the index.
-/
import proofs.«131098_j61297773248742_2_alg».proof.Proof.RowLoss
import proofs.«131098_j61297773248742_2_alg».proof.Proof.TakeAlong
import proofs.«131098_j61297773248742_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

noncomputable section

namespace Cert.KernelIdeal.Prelude

open Cert.KernelIdeal Cert.KernelIdeal.Gen Idealize.ShloMosaic Idealize.ShloMosaic.TcCoe Idealize.SL.Sem Idealize.ShloMosaic.ValueIdx
open Cert.TakeAlong (InRange)

/-! ## The host's index arithmetic before the region, as functions of @main's arguments -/

/-- The labels with a negative one wrapped by the class count: select (y < 0) (y + 32768) y. -/
abbrev labelWrap (y : IVec S4096 32) : IVec S4096 32 :=
  select (cmpi .slt y (broadcastInDim S4096 ![] bcast_S_S4096 (constantI S_ 32 0#32)))
    (addi y (broadcastInDim S4096 ![] bcast_S_S4096 (constantI S_ 32 32768#32))) y

/-- position[y]: the gather of the position table at the wrapped labels. -/
abbrev posAt (y : IVec S4096 32) (pos : IVec S32768 32) : IVec S4096 32 :=
  Host.gather gather_S32768_S4096x1_S4096_n_0_n_n_0_1_1 pos
    (broadcastInDim S4096x1 ![0] bcast_S4096_S4096x1_0 (labelWrap y))

/-- The cluster bits: position[y] ≥ 0. -/
def cluBits (y : IVec S4096 32) (pos : IVec S32768 32) : IVec S4096 1 :=
  cmpi .sge (posAt y pos) (broadcastInDim S4096 ![] bcast_S_S4096 (constantI S_ 32 0#32))

/-- The row of the neighbour tables a label uses: position[y] where that is ≥ 0, else 0. -/
abbrev listIdx (y : IVec S4096 32) (pos : IVec S32768 32) : IVec S4096 32 :=
  select (cluBits y pos) (posAt y pos) (broadcastInDim S4096 ![] bcast_S_S4096 (id (constantI S_ 32 0#32)))

/-- A table row with a negative one wrapped by the row count: select (l < 0) (l + 8192) l. -/
abbrev listWrap (l : IVec S4096 32) : IVec S4096 32 :=
  select (cmpi .slt l (broadcastInDim S4096 ![] bcast_S_S4096 (constantI S_ 32 0#32)))
    (addi l (broadcastInDim S4096 ![] bcast_S_S4096 (constantI S_ 32 8192#32))) l

/-- The neighbour classes per row: the rows of the neighbour table at the labels' table rows. -/
def nbrIdx (y : IVec S4096 32) (pos : IVec S32768 32) (nb : IVec S8192x64 32) : IVec S4096x64 32 :=
  Host.gather gather_S8192x64_S4096x1_S4096x64_1_0_n_n_0_1_164 nb
    (broadcastInDim S4096x1 ![0] bcast_S4096_S4096x1_0 (listWrap (listIdx y pos)))

/-- The neighbour validity bits per row: the rows of the mask table at the labels' table rows. -/
def mskBits (y : IVec S4096 32) (pos : IVec S32768 32) (mask : IVec S8192x64 1) : IVec S4096x64 1 :=
  Host.gather gather_S8192x64_S4096x1_S4096x64_1_0_n_n_0_1_164 mask
    (broadcastInDim S4096x1 ![0] bcast_S4096_S4096x1_0 (listWrap (listIdx y pos)))

/-! ## Pieces of take_along_axis, at any shape -/

section Pieces
variable {s : Shape}

/-- The wrap `select (idx < 0) (idx + k) idx` leaves an index in range alone. -/
theorem wrap_apply (idx z k : IVec s 32) (i : s.Idx) (hz : z i = 0#32) (h : InRange (idx i)) :
    select (cmpi .slt idx z) (addi idx k) idx i = idx i := by
  show Scalar.select (IntOp.cmpi .slt (idx i) (z i)) (IntOp.addi (idx i) (k i)) (idx i) = idx i
  rw [hz, h.not_neg, select_zero]

/-- Both bounds tests, 0 ≤ v and v ≤ 32767, pass on an index in range. -/
theorem inb_apply (v lo hi : IVec s 32) (i : s.Idx) (hlo : lo i = 0#32) (hhi : hi i = 32767#32) (h : InRange (v i)) :
    andi (cmpi .sge v lo) (cmpi .sle v hi) i = 1#1 := by
  show IntOp.andi (IntOp.cmpi .sge (v i) (lo i)) (IntOp.cmpi .sle (v i) (hi i)) = 1#1
  rw [hlo, hhi]
  exact (Cert.TakeAlong.andi_eq_one_iff _ _).mpr ⟨h.ge_zero, h.le_max⟩

end Pieces

/-- An [R, C] array reshaped to [R, C, 1] reads, at (r, k, u), the operand at (r, k). -/
theorem addUnitLast_apply {α : Type} {R C : Nat} (v : (⟨2, ![R, C]⟩ : Shape).Idx → α)
    (h : (⟨2, ![R, C]⟩ : Shape).ShapeCasts ⟨3, ![R, C, 1]⟩) (i : (⟨3, ![R, C, 1]⟩ : Shape).Idx) :
    shapeCast ⟨3, ![R, C, 1]⟩ v h i = v (ix2 (i 0) (i 1)) :=
  shapeCast_apply v h i _ (by
    rw [Shape.rowMajor_val_two, Shape.rowMajor_val_three]
    have h2 : (i 2).val < 1 := (i 2).isLt
    show (i 0).val * C + (i 1).val = ((i 0).val * C + (i 1).val) * 1 + (i 2).val
    omega)

/-- A [4096] array broadcast along a new second axis reads, at (r, k), the operand at r. -/
theorem col1_apply {α : Type} (y : S4096.Idx → α) (i : S4096x1.Idx) :
    broadcastInDim S4096x1 ![0] bcast_S4096_S4096x1_0 y i = y (ix1 (i 0)) :=
  broadcastInDim_apply _ bcast_S4096_S4096x1_0 y i _ (fun a => match a with
    | ⟨0, _⟩ => by show (i 0).val = if (4096 : Nat) = 1 then 0 else (i 0).val; rw [if_neg (by decide)])

/-- The logits at row b and a class given by an index word: the clamped signed reading of the word is `col`. -/
theorem read_col {α : Type} (x : S4096x32768.Idx → α) (b b' : Fin 4096) (hb : b' = b) (W w : BitVec 32) (hW : W = w)
    (p : min W.toInt.toNat (32768 - 1) < 32768) :
    x (ix2 b' ⟨min W.toInt.toNat (32768 - 1), p⟩) = x (ix2 b (Cert.RowLoss.col w)) := by
  subst hW; subst hb; rfl

/-! ## The two calls of take_along_axis -/

/-- The wrapped index array of the 1-column call, reshaped with a trailing unit axis. -/
abbrev wrap1 (idx : IVec S4096x1 32) : IVec S4096x1x1 32 :=
  shapeCast S4096x1x1
    (select (cmpi .slt idx (broadcastInDim S4096x1 ![] bcast_S_S4096x1 (constantI S_ 32 0#32)))
      (addi idx (broadcastInDim S4096x1 ![] bcast_S_S4096x1 (constantI S_ 32 32768#32))) idx)
    shapeCasts_S4096x1_S4096x1x1

/-- The in-bounds test of the 1-column call: the and, over the unit axis, of 0 ≤ index and index ≤ 32767. -/
abbrev ok1 (idx : IVec S4096x1 32) : IVec S4096x1 1 :=
  Host.reduce IntOp.andi
    (andi (cmpi .sge (wrap1 idx) (broadcastInDim S4096x1x1 ![] bcast_S_S4096x1x1 (constantI S_ 32 0#32)))
      (cmpi .sle (wrap1 idx) (broadcastInDim S4096x1x1 ![0, 1, 2] bcast_S1x1x1_S4096x1x1_0_1_2
        (broadcastInDim S1x1x1 ![2] bcast_S1_S1x1x1_2 (constantI S1 32 32767#32)))))
    (constantI S_ 1 1#1) reducesTo_S4096x1x1_S4096x1_d2 h_S_

/-- take_along_axis of the logits along the class axis at a [4096, 1] index array, as the program computes it:
    the batched gather at the wrapped indices where the test holds, NaN elsewhere. -/
def take1 (x : S4096x32768.Idx → EReal) (idx : IVec S4096x1 32) : S4096x1.Idx → EReal :=
  select (ok1 idx) (Host.gather gather_S4096x32768_S4096x1x1_S4096x1_n_1_0_0_1_2_11 x (wrap1 idx))
    (broadcastInDim S4096x1 ![] bcast_S_S4096x1 (constant (F := Ideal) S_ .f32 0x7FC00000#32))

/-- On indices in range the wrap and the reshape leave the index array's entries as they are. -/
theorem wrap1_apply (idx : IVec S4096x1 32) (h : ∀ i, InRange (idx i)) (i : S4096x1x1.Idx) :
    wrap1 idx i = idx (ix2 (i 0) (i 1)) := by
  refine (addUnitLast_apply _ shapeCasts_S4096x1_S4096x1x1 i).trans ?_
  exact wrap_apply idx _ _ _ rfl (h _)

/-- On indices in range the test holds everywhere. -/
theorem ok1_apply (idx : IVec S4096x1 32) (h : ∀ i, InRange (idx i)) (j : S4096x1.Idx) : ok1 idx j = 1#1 :=
  Cert.TakeAlong.reduce_andi_of_all _ _ reducesTo_S4096x1x1_S4096x1_d2 h_S_ (fun _ => rfl)
    (fun i => inb_apply _ _ _ i rfl rfl (by rw [wrap1_apply idx h]; exact h _)) j

attribute [local irreducible] Host.reduce Host.gather in
set_option maxRecDepth 8192 in
/-- On indices in range the call reads, at (b, k), the logit of row b at the class idx[b, k]. -/
theorem take1_apply (x : S4096x32768.Idx → EReal) (idx : IVec S4096x1 32) (h : ∀ i, InRange (idx i))
    (b : Fin 4096) (k : Fin 1) :
    take1 x idx (ix2 b k) = x (ix2 b (Cert.RowLoss.col (idx (ix2 b k)))) := by
  unfold take1
  rw [select_apply, ok1_apply idx h, select_one]
  refine (Cert.TakeAlong.gather_rowTake_apply (R := 4096) (N := 32768) (C := 1) (by decide)
    gather_S4096x32768_S4096x1x1_S4096x1_n_1_0_0_1_2_11_wf x (wrap1 idx) (ix2 b k)).trans ?_
  exact read_col x b _ rfl _ _ (wrap1_apply idx h _) _

/-- The wrapped index array of the 64-column call, reshaped with a trailing unit axis. -/
abbrev wrap64 (idx : IVec S4096x64 32) : IVec S4096x64x1 32 :=
  shapeCast S4096x64x1
    (select (cmpi .slt idx (broadcastInDim S4096x64 ![] bcast_S_S4096x64 (constantI S_ 32 0#32)))
      (addi idx (broadcastInDim S4096x64 ![] bcast_S_S4096x64 (constantI S_ 32 32768#32))) idx)
    shapeCasts_S4096x64_S4096x64x1

/-- The in-bounds test of the 64-column call: the and, over the unit axis, of 0 ≤ index and index ≤ 32767. -/
abbrev ok64 (idx : IVec S4096x64 32) : IVec S4096x64 1 :=
  Host.reduce IntOp.andi
    (andi (cmpi .sge (wrap64 idx) (broadcastInDim S4096x64x1 ![] bcast_S_S4096x64x1 (constantI S_ 32 0#32)))
      (cmpi .sle (wrap64 idx) (broadcastInDim S4096x64x1 ![0, 1, 2] bcast_S1x1x1_S4096x64x1_0_1_2
        (broadcastInDim S1x1x1 ![2] bcast_S1_S1x1x1_2 (constantI S1 32 32767#32)))))
    (constantI S_ 1 1#1) reducesTo_S4096x64x1_S4096x64_d2 h_S_

/-- take_along_axis of the logits along the class axis at a [4096, 64] index array, as the program computes it:
    the batched gather at the wrapped indices where the test holds, NaN elsewhere. -/
def take64 (x : S4096x32768.Idx → EReal) (idx : IVec S4096x64 32) : S4096x64.Idx → EReal :=
  select (ok64 idx) (Host.gather gather_S4096x32768_S4096x64x1_S4096x64_n_1_0_0_1_2_11 x (wrap64 idx))
    (broadcastInDim S4096x64 ![] bcast_S_S4096x64 (constant (F := Ideal) S_ .f32 0x7FC00000#32))

/-- On indices in range the wrap and the reshape leave the index array's entries as they are. -/
theorem wrap64_apply (idx : IVec S4096x64 32) (h : ∀ i, InRange (idx i)) (i : S4096x64x1.Idx) :
    wrap64 idx i = idx (ix2 (i 0) (i 1)) := by
  refine (addUnitLast_apply _ shapeCasts_S4096x64_S4096x64x1 i).trans ?_
  exact wrap_apply idx _ _ _ rfl (h _)

/-- On indices in range the test holds everywhere. -/
theorem ok64_apply (idx : IVec S4096x64 32) (h : ∀ i, InRange (idx i)) (j : S4096x64.Idx) : ok64 idx j = 1#1 :=
  Cert.TakeAlong.reduce_andi_of_all _ _ reducesTo_S4096x64x1_S4096x64_d2 h_S_ (fun _ => rfl)
    (fun i => inb_apply _ _ _ i rfl rfl (by rw [wrap64_apply idx h]; exact h _)) j

attribute [local irreducible] Host.reduce Host.gather in
set_option maxRecDepth 8192 in
/-- On indices in range the call reads, at (b, k), the logit of row b at the class idx[b, k]. -/
theorem take64_apply (x : S4096x32768.Idx → EReal) (idx : IVec S4096x64 32) (h : ∀ i, InRange (idx i))
    (b : Fin 4096) (k : Fin 64) :
    take64 x idx (ix2 b k) = x (ix2 b (Cert.RowLoss.col (idx (ix2 b k)))) := by
  unfold take64
  rw [select_apply, ok64_apply idx h, select_one]
  refine (Cert.TakeAlong.gather_rowTake_apply (R := 4096) (N := 32768) (C := 64) (by decide)
    gather_S4096x32768_S4096x64x1_S4096x64_n_1_0_0_1_2_11_wf x (wrap64 idx) (ix2 b k)).trans ?_
  exact read_col x b _ rfl _ _ (wrap64_apply idx h _) _

/-! ## The arrays the region finds, as those terms of @main's arguments

Each is the fold of the host operations before the region read at one buffer: the operations that write other buffers
fall away and what is left is the composition above, by computation. -/

variable (m : (ℓ : Loc nD τ sig) → Buf (Elt Ideal) ℓ) (c : Dev nD)

attribute [local irreducible] Host.reduce Host.gather in
set_option maxRecDepth 8192 in
set_option maxHeartbeats 4000000 in
/-- The cluster bits the region's flag is made of. -/
theorem V_cluBits : (V m c main_v8 : IVec S4096 1) = cluBits (m ((c.tc : Thread nD τ).loc main_arg1)) (m ((c.tc : Thread nD τ).loc main_arg2)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

attribute [local irreducible] Host.reduce Host.gather in
set_option maxRecDepth 8192 in
set_option maxHeartbeats 4000000 in
/-- The neighbour classes. -/
theorem V_nbrIdx : (V m c main_v16 : IVec S4096x64 32)
    = nbrIdx (m ((c.tc : Thread nD τ).loc main_arg1)) (m ((c.tc : Thread nD τ).loc main_arg2)) (m ((c.tc : Thread nD τ).loc main_arg3)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

attribute [local irreducible] Host.reduce Host.gather in
set_option maxRecDepth 8192 in
set_option maxHeartbeats 4000000 in
/-- The neighbour validity bits. -/
theorem V_mskBits : (V m c main_v23 : IVec S4096x64 1)
    = mskBits (m ((c.tc : Thread nD τ).loc main_arg1)) (m ((c.tc : Thread nD τ).loc main_arg2)) (m ((c.tc : Thread nD τ).loc main_arg4)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

attribute [local irreducible] Host.reduce Host.gather in
set_option maxRecDepth 8192 in
set_option maxHeartbeats 4000000 in
/-- The label logits: take_along_axis at the labels as a column. -/
theorem V_v25_eq : (V m c main_v25 : S4096x1.Idx → EReal)
    = take1 (m ((c.tc : Thread nD τ).loc main_arg0)) (broadcastInDim S4096x1 ![0] bcast_S4096_S4096x1_0 (m ((c.tc : Thread nD τ).loc main_arg1))) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

attribute [local irreducible] Host.reduce Host.gather in
set_option maxRecDepth 8192 in
set_option maxHeartbeats 4000000 in
/-- The neighbour logits: take_along_axis at the neighbour classes. -/
theorem V_v26_eq : (V m c main_v26 : S4096x64.Idx → EReal)
    = take64 (m ((c.tc : Thread nD τ).loc main_arg0)) (nbrIdx (m ((c.tc : Thread nD τ).loc main_arg1)) (m ((c.tc : Thread nD τ).loc main_arg2)) (m ((c.tc : Thread nD τ).loc main_arg3))) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

attribute [local irreducible] Host.reduce Host.gather in
set_option maxRecDepth 8192 in
set_option maxHeartbeats 4000000 in
/-- The float mask: the validity bits converted. -/
theorem V_v27_eq : (V m c main_v27 : S4096x64.Idx → EReal)
    = uitofp (F := Ideal) .f32 (mskBits (m ((c.tc : Thread nD τ).loc main_arg1)) (m ((c.tc : Thread nD τ).loc main_arg2)) (m ((c.tc : Thread nD τ).loc main_arg4))) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

attribute [local irreducible] Host.reduce Host.gather in
set_option maxRecDepth 8192 in
set_option maxHeartbeats 4000000 in
/-- The float cluster flag: the cluster bits converted, as a column. -/
theorem V_v29_eq : (V m c main_v29 : S4096x1.Idx → EReal)
    = shapeCast S4096x1 (uitofp (F := Ideal) .f32 (cluBits (m ((c.tc : Thread nD τ).loc main_arg1)) (m ((c.tc : Thread nD τ).loc main_arg2)))) shapeCasts_S4096_S4096x1 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

/-! ## The four staged arrays at an index -/

/-- The label logit of row b is the logit at the label's class. -/
theorem V_label (hy : ∀ i, InRange ((m ((c.tc : Thread nD τ).loc main_arg1)) i)) (b : Fin 4096) :
    V m c main_v25 (ix2 b 0) = (m ((c.tc : Thread nD τ).loc main_arg0)) (ix2 b (Cert.RowLoss.cyOf (m ((c.tc : Thread nD τ).loc main_arg1)) b)) := by
  have hidx : ∀ i, InRange (broadcastInDim S4096x1 ![0] bcast_S4096_S4096x1_0 (m ((c.tc : Thread nD τ).loc main_arg1)) i) := fun i => by
    rw [col1_apply]; exact hy _
  rw [V_v25_eq, take1_apply _ _ hidx b 0, col1_apply]
  rfl

/-- The neighbour logit of row b, slot k is the logit at that neighbour's class; every neighbour class is an entry of
    the neighbour table, so the table's entries being in range covers them. -/
theorem V_nbr (hn : ∀ i, InRange ((m ((c.tc : Thread nD τ).loc main_arg3)) i)) (b : Fin 4096) (k : Fin 64) :
    V m c main_v26 (ix2 b k) = (m ((c.tc : Thread nD τ).loc main_arg0)) (ix2 b (Cert.RowLoss.cnOf (V m c main_v16) b k)) := by
  have hidx : ∀ i, InRange (nbrIdx (m ((c.tc : Thread nD τ).loc main_arg1)) (m ((c.tc : Thread nD τ).loc main_arg2)) (m ((c.tc : Thread nD τ).loc main_arg3)) i) := fun i => hn _
  rw [V_v26_eq, V_nbrIdx, take64_apply _ _ hidx b k]
  rfl

/-- The float mask is the flag of the validity bit. -/
theorem V_msk (b : Fin 4096) (k : Fin 64) :
    V m c main_v27 (ix2 b k) = Cert.RowLoss.flag (V m c main_v23 (ix2 b k)) := by
  rw [V_v27_eq, V_mskBits]
  exact Cert.RowLoss.uitofp_eq_flag _

/-- The float cluster flag of row b is the flag of the row's cluster bit. -/
theorem V_isclu (b : Fin 4096) :
    V m c main_v29 (ix2 b 0) = Cert.RowLoss.flag (V m c main_v8 (ix1 b)) := by
  rw [V_v29_eq, V_cluBits]
  refine (shapeCast_apply _ shapeCasts_S4096_S4096x1 (ix2 b 0) (ix1 b) ?_).trans (Cert.RowLoss.uitofp_eq_flag _)
  rw [Shape.rowMajor_val_one, Shape.rowMajor_val_two]
  show b.val = b.val * 1 + 0
  omega

end Cert.KernelIdeal.Prelude

end
-- ==== Proof.KernelValue.lean ====
/-
  The kernel's result as the specification's first arrangement.

  The region's output array holds, at row b, the row term of the five staged arrays; the staged label logits are
  x[b, cy b], the staged neighbour logits x[b, cn b k], the float mask and the float cluster flag the flags of their
  bits. So the mean of the output array is `kernelTotal` of the row data.
-/
import proofs.«131098_j61297773248742_2_alg».proof.Proof.KernelRegion
import proofs.«131098_j61297773248742_2_alg».proof.Proof.KernelPrelude
import proofs.«131098_j61297773248742_2_alg».proof.Proof.RowLoss
import proofs.«131098_j61297773248742_2_alg».proof.Proof.TakeAlong

noncomputable section

namespace Cert.KernelIdeal.KValue

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ) (c : Dev nD)

/-- Row b of the region's output array is the specification's kernel row term of the row data. -/
theorem out_row (hy : ∀ i, Cert.TakeAlong.InRange ((m ((c.tc : Thread nD τ).loc main_arg1)) i))
    (hn : ∀ i, Cert.TakeAlong.InRange ((m ((c.tc : Thread nD τ).loc main_arg3)) i)) (b : Fin 4096) :
    Cert.RowLoss.kernelOut (V m c main_arg0) (V m c main_v25) (V m c main_v26) (V m c main_v27) (V m c main_v29) (ix2 b 0)
      = Cert.RowLoss.kernelRow (Cert.RowLoss.xOf (m ((c.tc : Thread nD τ).loc main_arg0)))
          (Cert.RowLoss.cyOf (m ((c.tc : Thread nD τ).loc main_arg1))) (Cert.RowLoss.cnOf (V m c main_v16))
          (Cert.RowLoss.mbOf (V m c main_v23)) (Cert.RowLoss.kOf (V m c main_v8)) b := by
  show Cert.RowLoss.kernelRowArr (V m c main_arg0) (V m c main_v25) (V m c main_v26) (V m c main_v27) (V m c main_v29) b = _
  rw [Gen.V_main_arg0 m c]
  exact Cert.RowLoss.kernelRowArr_eq _ _ _ _ _ _ _ _ _ b (Cert.KernelIdeal.Prelude.V_label m c hy b)
    (fun k => Cert.KernelIdeal.Prelude.V_nbr m c hn b k) (fun k => Cert.KernelIdeal.Prelude.V_msk m c b k)
    (Cert.KernelIdeal.Prelude.V_isclu m c b)

/-- THE KERNEL'S RESULT: the mean of the output array is `kernelTotal` of the row data. -/
theorem kernel_value (hy : ∀ i, Cert.TakeAlong.InRange ((m ((c.tc : Thread nD τ).loc main_arg1)) i))
    (hn : ∀ i, Cert.TakeAlong.InRange ((m ((c.tc : Thread nD τ).loc main_arg3)) i)) :
    Cert.RowLoss.kernelTotalArr ((Gen.dats m 0 c).arrAt 5 cfg0.N)
      = Cert.RowLoss.kernelTotal (Cert.RowLoss.xOf (m ((c.tc : Thread nD τ).loc main_arg0)))
          (Cert.RowLoss.cyOf (m ((c.tc : Thread nD τ).loc main_arg1))) (Cert.RowLoss.cnOf (V m c main_v16))
          (Cert.RowLoss.mbOf (V m c main_v23)) (Cert.RowLoss.kOf (V m c main_v8)) := by
  rw [Cert.KernelIdeal.Region.final5]
  unfold Cert.RowLoss.kernelTotalArr Cert.RowLoss.kernelTotal
  simp only [out_row m c hy hn]

end Cert.KernelIdeal.KValue

end
-- ==== Proof.Stages.lean ====
/-
  The integer stages both programs compute are one term: the cluster bit (position[y] ≥ 0), the neighbour class
  indices neighbours[list_idx] and the neighbour validity bits neighbour_mask[list_idx], with
  list_idx = where(position[y] ≥ 0, position[y], 0). The two programs print the same operations in the same order over
  shapes and dimension numbers that are the same literals, so the equalities hold by unfolding.
-/
import proofs.«131098_j61297773248742_2_alg».proof.Proof.KernelPrelude
import proofs.«131098_j61297773248742_2_alg».proof.Proof.RefRead

noncomputable section

namespace Cert.Stages

open Idealize.ShloMosaic

attribute [local irreducible] Host.reduce Host.gather in
/-- The cluster bit. -/
theorem cluBits_eq (y : IVec Cert.KernelIdeal.S4096 32) (pos : IVec Cert.KernelIdeal.S32768 32) :
    Cert.KernelIdeal.Prelude.cluBits y pos = Cert.ReferenceIdeal.ReadP.val_main_v19 (F := Ideal) y pos := rfl

attribute [local irreducible] Host.reduce Host.gather in
/-- The neighbour class indices. -/
theorem nbrIdx_eq (y : IVec Cert.KernelIdeal.S4096 32) (pos : IVec Cert.KernelIdeal.S32768 32)
    (nb : IVec Cert.KernelIdeal.S8192x64 32) :
    Cert.KernelIdeal.Prelude.nbrIdx y pos nb = Cert.ReferenceIdeal.ReadP.val_main_v30 (F := Ideal) y pos nb := rfl

attribute [local irreducible] Host.reduce Host.gather in
/-- The neighbour validity bits. -/
theorem mskBits_eq (y : IVec Cert.KernelIdeal.S4096 32) (pos : IVec Cert.KernelIdeal.S32768 32)
    (mask : IVec Cert.KernelIdeal.S8192x64 1) :
    Cert.KernelIdeal.Prelude.mskBits y pos mask = Cert.ReferenceIdeal.ReadP.val_main_v37 (F := Ideal) y pos mask := rfl

end Cert.Stages

end
-- ==== Proof.RefSoftmax.lean ====
/-
  The reference's softmax, read at an index.

  For row b the program takes m_b, the maximum of the row's logits (a reduction with max from -∞ over the class axis,
  then one more max against a row of -∞), subtracts it, exponentiates, sums the row, and divides:

    rowmax_eq    the maximum stage at row b is the fold of max from ⊥ over the classes of row b;
    softmax_eq   the quotient stage at (b, c) is exp (x[b,c] - m_b) / Σ_c' exp (x[b,c'] - m_b).
-/
import proofs.«131098_j61297773248742_2_alg».proof.Proof.RefRead
import proofs.«131098_j61297773248742_2_alg».proof.Proof.RowLoss
import Idealize.ShloMosaic.Lib.ValueIdx
import Idealize.ShloMosaic.PureOps.Ideal.Laws

noncomputable section

namespace Cert.ReferenceIdeal.RefSoftmax

open Cert.ReferenceIdeal Cert.ReferenceIdeal.ReadP Idealize.ShloMosaic Idealize.ShloMosaic.ValueIdx

variable (x0 : (⟨S4096x32768, .f32⟩ : BufTy).Contents (Elt Ideal))

/-! ## The row maximum -/

/-- Over row b, inserting class c on the class axis names the entry (b, c). -/
theorem lift_row (h : S4096x32768.Reduces [1] S4096) (b : Fin 4096) (c : Fin 32768) :
    h.lift (ix1 b) c = ix2 b c :=
  funext fun a => Fin.ext (by match a with | ⟨0, _⟩ => rfl | ⟨1, _⟩ => rfl)

/-- The max-reduction over the class axis at row b: max is commutative and associative, so the reduction is the fold
    of max over the row's classes, from the initial word -∞, which denotes ⊥. -/
theorem reduce_max_eq (b : Fin 4096) :
    val_main_v0 (F := Ideal) x0 (ix1 b) = Cert.RowLoss.rowMax (Cert.RowLoss.xOf x0) b := by
  have h : S4096x32768.Reduces [1] S4096 := by decide
  unfold val_main_v0
  refine (Host.reduce_eq_fold_single (FloatOps.maximumf (F := Ideal) (φ := .f32)) x0 (val_main_cst (F := Ideal))
    _ h _ (ix1 b)).trans ?_
  rw [val_main_cst_apply, Ideal.ofBits_def, Cert.RowLoss.ofBits_neg_inf]
  unfold Cert.RowLoss.rowMax
  exact Finset.fold_congr fun c _ => congrArg x0 (lift_row h b c)

/-- The row maximum as the program leaves it: one more max against -∞ = ⊥ changes nothing. -/
theorem rowmax_eq (b : Fin 4096) :
    val_main_v2 (F := Ideal) x0 (ix1 b) = Cert.RowLoss.rowMax (Cert.RowLoss.xOf x0) b := by
  rw [val_main_v2_apply, val_main_v1_apply, val_main_cst_0_apply, Ideal.maximumf_def, Ideal.ofBits_def,
    Cert.RowLoss.ofBits_neg_inf, reduce_max_eq]
  exact max_eq_right bot_le

/-! ## The softmax -/

/-- The exponential stage at (b, k): the row maximum is broadcast along the class axis (through a [4096, 1] column),
    subtracted and exponentiated. -/
theorem exp_eq (b : Fin 4096) (k : Fin 32768) :
    val_main_v6 (F := Ideal) x0 (ix2 b k) = Cert.RowLoss.ex (Cert.RowLoss.xOf x0) b k := by
  have i4 : idx_main_v4 (ix2 b k) = ix2 b (0 : Fin 1) :=
    funext fun a => Fin.ext (by match a with | ⟨0, _⟩ => rfl | ⟨1, _⟩ => rfl)
  have i3 : idx_main_v3 (ix2 b (0 : Fin 1)) = ix1 b :=
    funext fun a => Fin.ext (by match a with | ⟨0, _⟩ => rfl)
  rw [val_main_v6_apply, val_main_v5_apply, val_main_v4_apply, i4, val_main_v3_apply, i3, rowmax_eq,
    Ideal.hostUnary_exp_def, Ideal.subf_def]
  rfl

/-- The row sum at row b: zero plus the sum of the row's exponentials. -/
theorem rowsum_eq (b : Fin 4096) :
    val_main_v7 (F := Ideal) x0 (ix1 b) = Cert.RowLoss.rowSum (Cert.RowLoss.xOf x0) b := by
  have i7 : ∀ k : Fin 32768, idx_main_v7 (ix1 b) k = ix2 b k := fun k =>
    funext fun a => Fin.ext (by match a with | ⟨0, _⟩ => rfl | ⟨1, _⟩ => rfl)
  have e6 : ∀ k : Fin 32768, val_main_v6 (F := Ideal) x0 (idx_main_v7 (ix1 b) k)
      = Cert.RowLoss.ex (Cert.RowLoss.xOf x0) b k := fun k =>
    (congrArg (val_main_v6 (F := Ideal) x0) (i7 k)).trans (exp_eq x0 b k)
  rw [val_main_v7_apply, val_main_cst_1_apply, Ideal.ofBits_def, Ideal.ofBits_zero_f32, zero_add]
  unfold Cert.RowLoss.rowSum
  exact Finset.sum_congr rfl fun k _ => e6 k

/-- The softmax at (b, c): the exponential over the row sum, the sum broadcast along the class axis. -/
theorem softmax_eq (b : Fin 4096) (c : Fin 32768) :
    val_main_v10 (F := Ideal) x0 (ix2 b c) = Cert.RowLoss.prob (Cert.RowLoss.xOf x0) b c := by
  have i9 : idx_main_v9 (ix2 b c) = ix2 b (0 : Fin 1) :=
    funext fun a => Fin.ext (by match a with | ⟨0, _⟩ => rfl | ⟨1, _⟩ => rfl)
  have i8 : idx_main_v8 (ix2 b (0 : Fin 1)) = ix1 b :=
    funext fun a => Fin.ext (by match a with | ⟨0, _⟩ => rfl)
  rw [val_main_v10_apply, val_main_v9_apply, i9, val_main_v8_apply, i8, rowsum_eq, exp_eq, Ideal.hostDivf_def]
  rfl

end Cert.ReferenceIdeal.RefSoftmax

end
-- ==== Proof.RefTotal.lean ====
/-
  The end of the reference: its two masked sums over the rows, negated, added and divided by 4096.

  With κ_b the row's cluster bit, the reference sums, over the 4096 rows, the cluster rows' terms log (p(label) +
  Σ_k p(neighbour k) · mask k) with 0 at the other rows, and the other rows' terms log p(label) with 0 at the cluster
  rows; each sum starts from the zero word, each is negated, the second negated sum is added to the first's, and the
  total is divided by the word of 4096.0.  Where the per-row terms are the loss's refCls and refIns of the row data,
  that is the loss's refTotal.  A sum over the indices of a [4096] array is the sum over its rows; a select on a
  one-bit word is the if on "the word is 1"; the two broadcast zero constants read 0 at every row.
-/
import proofs.«131098_j61297773248742_2_alg».proof.Proof.RefRead
import proofs.«131098_j61297773248742_2_alg».proof.Proof.RowLoss
import proofs.«131098_j61297773248742_2_alg».proof.Proof.TakeAlong
import Idealize.ShloMosaic.Lib.ValueIdx
import Idealize.ShloMosaic.PureOps.Ideal.Laws

noncomputable section

namespace Cert.ReferenceIdeal.RefTotal

open Cert.ReferenceIdeal Cert.ReferenceIdeal.ReadP Idealize.ShloMosaic Idealize.ShloMosaic.ValueIdx

variable (x0 : (⟨S4096x32768, .f32⟩ : BufTy).Contents (Elt Ideal)) (x1 : (⟨S4096, .i32⟩ : BufTy).Contents (Elt Ideal))
  (x2 : (⟨S32768, .i32⟩ : BufTy).Contents (Elt Ideal)) (x3 : (⟨S8192x64, .i32⟩ : BufTy).Contents (Elt Ideal))
  (x4 : (⟨S8192x64, .i1⟩ : BufTy).Contents (Elt Ideal))

/-- The masked instance-row sum: over the rows, 0 at a cluster row and the row's instance term elsewhere. -/
theorem sum_ins (cy : Fin 4096 → Fin 32768)
    (hins : ∀ b, val_main_v47 (F := Ideal) x0 x1 (ix1 b) = Cert.RowLoss.refIns (Cert.RowLoss.xOf x0) cy b) (i : S_.Idx) :
    val_main_v49 (F := Ideal) x0 x1 x2 i
      = ∑ b : Fin 4096, if Cert.RowLoss.kOf (val_main_v19 (F := Ideal) x1 x2) b = 1#1 then (0 : EReal)
          else Cert.RowLoss.refIns (Cert.RowLoss.xOf x0) cy b := by
  rw [val_main_v49_apply, val_main_cst_13_apply, Ideal.ofBits_def, Ideal.ofBits_zero_f32, zero_add,
    Cert.RowLoss.sum_idx1]
  refine Finset.sum_congr rfl fun b _ => ?_
  rw [val_main_v48_apply, Cert.RowLoss.select_eq_ite, val_main_call4_v1_apply, val_main_call4_v0_apply,
    val_main_cst_12_apply, Ideal.ofBits_def, Ideal.ofBits_zero_f32, hins b]
  rfl

/-- The masked cluster-row sum: over the rows, the row's cluster term at a cluster row and 0 elsewhere. -/
theorem sum_cls (cy : Fin 4096 → Fin 32768) (cn : Fin 4096 → Fin 64 → Fin 32768) (mb : Fin 4096 → Fin 64 → BitVec 1)
    (hcls : ∀ b, val_main_v43 (F := Ideal) x0 x1 x2 x3 x4 (ix1 b)
      = Cert.RowLoss.refCls (Cert.RowLoss.xOf x0) cy cn mb b) (i : S_.Idx) :
    val_main_v45 (F := Ideal) x0 x1 x2 x3 x4 i
      = ∑ b : Fin 4096, if Cert.RowLoss.kOf (val_main_v19 (F := Ideal) x1 x2) b = 1#1
          then Cert.RowLoss.refCls (Cert.RowLoss.xOf x0) cy cn mb b else (0 : EReal) := by
  rw [val_main_v45_apply, val_main_cst_11_apply, Ideal.ofBits_def, Ideal.ofBits_zero_f32, zero_add,
    Cert.RowLoss.sum_idx1]
  refine Finset.sum_congr rfl fun b _ => ?_
  rw [val_main_v44_apply, Cert.RowLoss.select_eq_ite, val_main_call3_v1_apply, val_main_call3_v0_apply,
    val_main_cst_10_apply, Ideal.ofBits_def, Ideal.ofBits_zero_f32, hcls b]
  rfl

/-- THE REFERENCE'S RESULT from its per-row terms: where the cluster-row and instance-row logarithms are the loss's
    row terms, the reference's scalar is the loss's reference total on the row data, with the cluster bits the
    program's own comparison word. -/
theorem total_of_rows (cy : Fin 4096 → Fin 32768) (cn : Fin 4096 → Fin 64 → Fin 32768) (mb : Fin 4096 → Fin 64 → BitVec 1)
    (hcls : ∀ b, val_main_v43 (F := Ideal) x0 x1 x2 x3 x4 (ix1 b)
      = Cert.RowLoss.refCls (Cert.RowLoss.xOf x0) cy cn mb b)
    (hins : ∀ b, val_main_v47 (F := Ideal) x0 x1 (ix1 b) = Cert.RowLoss.refIns (Cert.RowLoss.xOf x0) cy b) (i : S_.Idx) :
    val_main_v52 (F := Ideal) x0 x1 x2 x3 x4 i
      = Cert.RowLoss.refTotal (Cert.RowLoss.xOf x0) cy cn mb (Cert.RowLoss.kOf (val_main_v19 (F := Ideal) x1 x2)) := by
  rw [val_main_v52_apply, val_main_v51_apply, val_main_v50_apply, val_main_v46_apply,
    sum_ins x0 x1 x2 cy hins i, sum_cls x0 x1 x2 x3 x4 cy cn mb hcls i, val_main_cst_14_apply,
    Ideal.hostDivf_def, Ideal.addf_def, Ideal.hostNegf_def, Ideal.hostNegf_def, Ideal.negf_def, Ideal.negf_def,
    Ideal.ofBits_def, Cert.RowLoss.ofBits_4096]
  rfl

end Cert.ReferenceIdeal.RefTotal

end
-- ==== Proof.RefGather.lean ====
/-
  The two reads of the softmax along the class axis, at an index.

  The reference reads its softmax array p[b, c] twice by index arrays: once at the label y[b] (one column per row)
  and once at the 64 neighbour classes nb[b, k] of the row.  Each read wraps a negative index by the class count,
  tests 0 ≤ index ≤ 32767, gathers row b of p at the index, and keeps the gathered element where the test holds.
  For an index word that is a class index (0 ≤ w < 32768, signed) the wrap leaves the word alone and the test is 1,
  so the read at (b, k) is p[b, w]: the softmax array's own row b at the class the word names.

  Both statements keep the softmax array closed: they relate one entry of the read to one entry of that array.
-/
import proofs.«131098_j61297773248742_2_alg».proof.Proof.RefRead
import proofs.«131098_j61297773248742_2_alg».proof.Proof.RowLoss
import proofs.«131098_j61297773248742_2_alg».proof.Proof.TakeAlong
import Idealize.ShloMosaic.Lib.ValueIdx
import Idealize.ShloMosaic.PureOps.Ideal.Laws

noncomputable section

namespace Cert.ReferenceIdeal.RefGather

open Cert.ReferenceIdeal Cert.ReferenceIdeal.ReadP Idealize.ShloMosaic Idealize.ShloMosaic.ValueIdx

variable (x0 : (⟨S4096x32768, .f32⟩ : BufTy).Contents (Elt Ideal)) (x1 : (⟨S4096, .i32⟩ : BufTy).Contents (Elt Ideal))
  (x2 : (⟨S32768, .i32⟩ : BufTy).Contents (Elt Ideal)) (x3 : (⟨S8192x64, .i32⟩ : BufTy).Contents (Elt Ideal))

/-! ## The read at the label -/

/-- The wrapped label index at [b, 0] is the label word itself: a class index is not negative, so the wrap's
    select takes its second branch. -/
theorem wrap_label (hy : ∀ i, Cert.TakeAlong.InRange (x1 i)) (j : S4096x1.Idx) :
    val_main_call0_v4 (F := Ideal) x1 j = x1 (idx_main_v20 j) := by
  rw [val_main_call0_v4_apply, val_main_call0_v1_apply, val_main_v20_apply, val_main_call0_v0_apply,
    val_main_call0_c_apply, (hy (idx_main_v20 j)).not_neg, select_zero]

/-- The in-bounds test of the label read is 1 at every index: both comparisons hold for a class index, and the
    and-reduction over the unit axis of an array of 1s from the constant 1 is 1. -/
theorem ok_label (hy : ∀ i, Cert.TakeAlong.InRange (x1 i)) (j : S4096x1.Idx) :
    val_main_call0_v12 (F := Ideal) x1 j = 1#1 := by
  unfold val_main_call0_v12
  refine Cert.TakeAlong.reduce_andi_of_all _ _ _ _ (fun _ => rfl) (fun i => ?_) j
  rw [val_main_call0_v11_apply, Cert.TakeAlong.andi_eq_one_iff, val_main_call0_v7_apply, val_main_call0_v10_apply,
    val_main_call0_v5_apply, wrap_label x1 hy, val_main_call0_v6_apply, val_main_call0_c_2_apply,
    val_main_call0_v9_apply, val_main_call0_v8_apply, val_main_call0_c_1_apply]
  exact ⟨(hy _).ge_zero, (hy _).le_max⟩

/-- The start index the gather sees for row b is the label word y[b]: the reshape [4096, 1] → [4096, 1, 1] and the
    broadcast [4096] → [4096, 1] keep the row coordinate. -/
theorem start_label (hy : ∀ i, Cert.TakeAlong.InRange (x1 i)) (b : Fin 4096) :
    val_main_call0_v5 (F := Ideal) x1 (takeIdx (ix2 b (0 : Fin 1))) = x1 (ix1 b) := by
  rw [val_main_call0_v5_apply, wrap_label x1 hy]
  refine congrArg (fun i => x1 i) (funext fun a => Fin.ext ?_)
  match a with
  | ⟨0, _⟩ =>
    show ((b.val * 1 + 0) * 1 + 0) / 1 = b.val
    omega

/-- THE LABEL READ: for labels that are class indices, entry b of the softmax read at the labels is the softmax
    array's entry (b, y[b]). -/
theorem label_eq (hy : ∀ i, Cert.TakeAlong.InRange (x1 i)) (b : Fin 4096) :
    val_main_v22 (F := Ideal) x0 x1 (ix1 b)
      = val_main_v10 (F := Ideal) x0 (ix2 b (Cert.RowLoss.cyOf x1 b)) := by
  have hi : idx_main_v22 (ix1 b) = ix2 b (0 : Fin 1) :=
    funext fun a => Fin.ext (by match a with | ⟨0, _⟩ => exact Nat.div_one _ | ⟨1, _⟩ => rfl)
  rw [val_main_v22_apply, hi, val_main_v21_apply, ok_label x1 hy, select_one]
  unfold val_main_call0_v13
  show Host.gather (Cert.TakeAlong.rowTakeDims 4096 32768 1 _) _ _ _ = _
  rw [Cert.TakeAlong.gather_rowTake_apply (R := 4096) (N := 32768) (C := 1) (by norm_num)]
  refine congrArg (fun i => val_main_v10 (F := Ideal) x0 i) (funext fun a => Fin.ext ?_)
  match a with
  | ⟨0, _⟩ => rfl
  | ⟨1, _⟩ => exact congrArg (fun w : BitVec 32 => min w.toInt.toNat 32767) (start_label x1 hy b)

/-! ## The read at the neighbour classes -/

/-- Every entry of the gathered neighbour-class array is an entry of the neighbour table, so it is a class index
    when the table's entries are. -/
theorem nbr_inRange (hn : ∀ i, Cert.TakeAlong.InRange (x3 i)) (j : S4096x64.Idx) :
    Cert.TakeAlong.InRange (val_main_v30 (F := Ideal) x1 x2 x3 j) := by
  unfold val_main_v30 Host.gather
  exact hn _

/-- The wrapped neighbour index is the neighbour word itself. -/
theorem wrap_nbr (hn : ∀ i, Cert.TakeAlong.InRange (x3 i)) (j : S4096x64.Idx) :
    val_main_call2_v4 (F := Ideal) x1 x2 x3 j = val_main_v30 (F := Ideal) x1 x2 x3 j := by
  rw [val_main_call2_v4_apply, val_main_call2_v1_apply, val_main_call2_v0_apply, val_main_call2_c_apply,
    (nbr_inRange x1 x2 x3 hn j).not_neg, select_zero]

/-- The in-bounds test of the neighbour read is 1 at every index. -/
theorem ok_nbr (hn : ∀ i, Cert.TakeAlong.InRange (x3 i)) (j : S4096x64.Idx) :
    val_main_call2_v12 (F := Ideal) x1 x2 x3 j = 1#1 := by
  unfold val_main_call2_v12
  refine Cert.TakeAlong.reduce_andi_of_all _ _ _ _ (fun _ => rfl) (fun i => ?_) j
  rw [val_main_call2_v11_apply, Cert.TakeAlong.andi_eq_one_iff, val_main_call2_v7_apply, val_main_call2_v10_apply,
    val_main_call2_v5_apply, wrap_nbr x1 x2 x3 hn, val_main_call2_v6_apply, val_main_call2_c_2_apply,
    val_main_call2_v9_apply, val_main_call2_v8_apply, val_main_call2_c_1_apply]
  exact ⟨(nbr_inRange x1 x2 x3 hn _).ge_zero, (nbr_inRange x1 x2 x3 hn _).le_max⟩

/-- The start index the gather sees at (b, k) is the neighbour word nb[b, k]: the reshape [4096, 64] →
    [4096, 64, 1] sends (b, k, 0) to the flat position 64 b + k, that is to (b, k). -/
theorem start_nbr (hn : ∀ i, Cert.TakeAlong.InRange (x3 i)) (b : Fin 4096) (k : Fin 64) :
    val_main_call2_v5 (F := Ideal) x1 x2 x3 (takeIdx (ix2 b k)) = val_main_v30 (F := Ideal) x1 x2 x3 (ix2 b k) := by
  rw [val_main_call2_v5_apply, wrap_nbr x1 x2 x3 hn]
  have hk : k.val < 64 := k.isLt
  refine congrArg (fun i => val_main_v30 (F := Ideal) x1 x2 x3 i) (funext fun a => Fin.ext ?_)
  match a with
  | ⟨0, _⟩ =>
    show ((b.val * 64 + k.val) * 1 + 0) / 64 = b.val
    omega
  | ⟨1, _⟩ =>
    show ((b.val * 64 + k.val) * 1 + 0) % 64 = k.val
    omega

/-- THE NEIGHBOUR READ: for a neighbour table of class indices, entry (b, k) of the softmax read at the row's
    neighbour classes is the softmax array's entry (b, nb[b, k]). -/
theorem nbr_eq (hn : ∀ i, Cert.TakeAlong.InRange (x3 i)) (b : Fin 4096) (k : Fin 64) :
    val_main_v39 (F := Ideal) x0 x1 x2 x3 (ix2 b k)
      = val_main_v10 (F := Ideal) x0 (ix2 b (Cert.RowLoss.cnOf (val_main_v30 (F := Ideal) x1 x2 x3) b k)) := by
  rw [val_main_v39_apply, ok_nbr x1 x2 x3 hn, select_one]
  unfold val_main_call2_v13
  show Host.gather (Cert.TakeAlong.rowTakeDims 4096 32768 64 _) _ _ _ = _
  rw [Cert.TakeAlong.gather_rowTake_apply (R := 4096) (N := 32768) (C := 64) (by norm_num)]
  refine congrArg (fun i => val_main_v10 (F := Ideal) x0 i) (funext fun a => Fin.ext ?_)
  match a with
  | ⟨0, _⟩ => rfl
  | ⟨1, _⟩ => exact congrArg (fun w : BitVec 32 => min w.toInt.toNat 32767) (start_nbr x1 x2 x3 hn b k)

end Cert.ReferenceIdeal.RefGather

end
-- ==== Proof.RefRows.lean ====
/-
  The reference's float mask and its two per-row logarithms, read at an index.

  Per row b the reference forms p_b(y_b) (the softmax at the label's class), the 64 values p_b(nbr_b,k) at the
  neighbour classes, the float mask from the validity bits, the masked sum Σ_k p_b(nbr_b,k) · mask_b,k, and the two
  logarithms log p_b(y_b) (an instance row) and log (p_b(y_b) + Σ_k p_b(nbr_b,k) · mask_b,k) (a cluster row).
  Here the two reads of the softmax along the class axis are hypotheses (the label's value L, the neighbours' values
  N k); what is shown is the arithmetic around them: the mask entry is the flag of its bit, the sum over the
  neighbour axis starts from the zero word, and the host's logarithm, sum and product are the extended reals'.
-/
import proofs.«131098_j61297773248742_2_alg».proof.Proof.RefRead
import proofs.«131098_j61297773248742_2_alg».proof.Proof.RowLoss
import proofs.«131098_j61297773248742_2_alg».proof.Proof.TakeAlong
import Idealize.ShloMosaic.Lib.ValueIdx
import Idealize.ShloMosaic.PureOps.Ideal.Laws

noncomputable section

namespace Cert.ReferenceIdeal.RefRows

open Cert.ReferenceIdeal Cert.ReferenceIdeal.ReadP Idealize.ShloMosaic Idealize.ShloMosaic.ValueIdx

variable (x0 : (⟨S4096x32768, .f32⟩ : BufTy).Contents (Elt Ideal)) (x1 : (⟨S4096, .i32⟩ : BufTy).Contents (Elt Ideal))
  (x2 : (⟨S32768, .i32⟩ : BufTy).Contents (Elt Ideal)) (x3 : (⟨S8192x64, .i32⟩ : BufTy).Contents (Elt Ideal))
  (x4 : (⟨S8192x64, .i1⟩ : BufTy).Contents (Elt Ideal))

/-- The float mask at (b, k) is the flag of the validity bit there: a one-bit word converted unsigned. -/
theorem msk_eq (b : Fin 4096) (k : Fin 64) :
    val_main_v38 (F := Ideal) x1 x2 x4 (ix2 b k) = Cert.RowLoss.flag (val_main_v37 (F := Ideal) x1 x2 x4 (ix2 b k)) := by
  rw [val_main_v38_apply]
  exact Cert.RowLoss.uitofp_eq_flag _

/-- The index the sum over the neighbour axis reads at slot k of row b is (b, k). -/
theorem idx_nbrSum (b : Fin 4096) (k : Fin 64) : idx_main_v41 (ix1 b) k = ix2 b k :=
  funext fun a => Fin.ext (by match a with | ⟨0, _⟩ => rfl | ⟨1, _⟩ => rfl)

/-- A cluster row's logarithm: log (L + Σ_k N k · mask_b,k), where L is the softmax at the label's class and N k the
    softmax at the k-th neighbour class. The sum over the neighbour axis starts from the zero word, which is 0. -/
theorem cls_row (b : Fin 4096) (L : EReal) (Nk : Fin 64 → EReal)
    (hlab : val_main_v22 (F := Ideal) x0 x1 (ix1 b) = L)
    (hnbr : ∀ k, val_main_v39 (F := Ideal) x0 x1 x2 x3 (ix2 b k) = Nk k) :
    val_main_v43 (F := Ideal) x0 x1 x2 x3 x4 (ix1 b)
      = Ideal.log (L + ∑ k : Fin 64, Nk k * Cert.RowLoss.flag (val_main_v37 (F := Ideal) x1 x2 x4 (ix2 b k))) := by
  rw [val_main_v43_apply, val_main_v42_apply, val_main_v41_apply, hlab, val_main_cst_9_apply]
  simp only [idx_nbrSum, val_main_v40_apply, val_main_v38_apply, hnbr, Cert.RowLoss.uitofp_eq_flag,
    Ideal.hostUnary_log_def, Ideal.addf_def, Ideal.mulf_def, Ideal.ofBits_def, Ideal.ofBits_zero_f32, zero_add]

/-- An instance row's logarithm: log L, where L is the softmax at the label's class. -/
theorem ins_row (b : Fin 4096) (L : EReal) (hlab : val_main_v22 (F := Ideal) x0 x1 (ix1 b) = L) :
    val_main_v47 (F := Ideal) x0 x1 (ix1 b) = Ideal.log L := by
  rw [val_main_v47_apply, hlab, Ideal.hostUnary_log_def]

end Cert.ReferenceIdeal.RefRows

end
-- ==== Proof.RefValue.lean ====
/-
  The reference's result as the specification's second arrangement: the per-row logarithms over the softmax read at
  the label's and the neighbours' classes, the softmax read as p_b(c) = e_b(c) / S_b, and the two masked sums.
-/
import proofs.«131098_j61297773248742_2_alg».proof.Proof.RefSoftmax
import proofs.«131098_j61297773248742_2_alg».proof.Proof.RefTotal
import proofs.«131098_j61297773248742_2_alg».proof.Proof.RefGather
import proofs.«131098_j61297773248742_2_alg».proof.Proof.RefRows

noncomputable section

namespace Cert.ReferenceIdeal.RefValue

open Cert.ReferenceIdeal Cert.ReferenceIdeal.ReadP Idealize.ShloMosaic Idealize.ShloMosaic.ValueIdx

/-- THE REFERENCE'S RESULT: `refTotal` of the row data. -/
theorem ref_value (x0 : (⟨S4096x32768, .f32⟩ : BufTy).Contents (Elt Ideal)) (x1 : (⟨S4096, .i32⟩ : BufTy).Contents (Elt Ideal))
    (x2 : (⟨S32768, .i32⟩ : BufTy).Contents (Elt Ideal)) (x3 : (⟨S8192x64, .i32⟩ : BufTy).Contents (Elt Ideal))
    (x4 : (⟨S8192x64, .i1⟩ : BufTy).Contents (Elt Ideal))
    (hy : ∀ i, Cert.TakeAlong.InRange (x1 i)) (hn : ∀ i, Cert.TakeAlong.InRange (x3 i)) (i : S_.Idx) :
    val_main_v52 (F := Ideal) x0 x1 x2 x3 x4 i
      = Cert.RowLoss.refTotal (Cert.RowLoss.xOf x0) (Cert.RowLoss.cyOf x1)
          (Cert.RowLoss.cnOf (val_main_v30 (F := Ideal) x1 x2 x3)) (Cert.RowLoss.mbOf (val_main_v37 (F := Ideal) x1 x2 x4))
          (Cert.RowLoss.kOf (val_main_v19 (F := Ideal) x1 x2)) := by
  refine Cert.ReferenceIdeal.RefTotal.total_of_rows x0 x1 x2 x3 x4 _ _ _ (fun b => ?_) (fun b => ?_) i
  · rw [Cert.ReferenceIdeal.RefRows.cls_row x0 x1 x2 x3 x4 b _ _ (Cert.ReferenceIdeal.RefGather.label_eq x0 x1 hy b)
      (fun k => Cert.ReferenceIdeal.RefGather.nbr_eq x0 x1 x2 x3 hn b k)]
    unfold Cert.RowLoss.refCls
    simp only [Cert.ReferenceIdeal.RefSoftmax.softmax_eq, Cert.RowLoss.mbOf]
  · rw [Cert.ReferenceIdeal.RefRows.ins_row x0 x1 b _ (Cert.ReferenceIdeal.RefGather.label_eq x0 x1 hy b)]
    unfold Cert.RowLoss.refIns
    rw [Cert.ReferenceIdeal.RefSoftmax.softmax_eq]

end Cert.ReferenceIdeal.RefValue

end
-- ==== Proof.lean ====
/-
  The five claims of this certificate.

  The kernel: for logits x[b, c] (4096 rows, 32768 classes), per row the maximum m_b, S_b = Σ_c exp (x[b,c] - m_b), and
    out_b = log S_b - log (exp (x[b, y_b] - m_b) + κ_b · Σ_k exp (x[b, n_bk] - m_b) · μ_bk),
  where y_b is the row's label, κ_b says whether position[y_b] ≥ 0, and n_bk, μ_bk are the 64 neighbour classes and
  validity bits of row list_idx_b of the neighbour tables; the result is the mean of out_b. The reference: the softmax
  p_b(c) = exp (x[b,c] - m_b) / S_b read at the same classes, log (p_b(y_b) + Σ_k p_b(n_bk) · μ_bk) on cluster rows and
  log p_b(y_b) on the others, negated, summed and divided by 4096.

  Under the precondition — finite logits, labels and neighbour entries in [0, 32768) — both take_along_axis reads stay
  in bounds, every quantity is a real number with S_b > 0, and log (u / S) = log u - log S joins the two row by row
  (Proof/RowLoss.lean). The kernel's side is read off its frame run (Proof/KernelRegion.lean: the blocks tile the
  output array; the host tail takes its mean) over the arrays the host prepares (Proof/KernelPrelude.lean); the
  reference's off its run, one operation at a time (Proof/RefSoftmax.lean, RefGather.lean, RefRows.lean, RefTotal.lean);
  the integer stages are the same term in both programs (Proof/Stages.lean). The three frames: the kernel's two by their
  generated frame runs, the reference's by its run with the result dropped. The idealization rewrote nothing, so
  `preserves` has no conjunct.
-/
import proofs.«131098_j61297773248742_2_alg».proof.Defs
import proofs.«131098_j61297773248742_2_alg».proof.Proof.Gen.Kernel
import proofs.«131098_j61297773248742_2_alg».proof.Proof.Gen.Kernel.Skeleton
import proofs.«131098_j61297773248742_2_alg».proof.Proof.Gen.Kernel.Launch
import proofs.«131098_j61297773248742_2_alg».proof.Proof.Gen.Kernel.Points
import proofs.«131098_j61297773248742_2_alg».proof.Proof.Gen.Kernel.Frame
import proofs.«131098_j61297773248742_2_alg».proof.Proof.Gen.KernelIdeal
import proofs.«131098_j61297773248742_2_alg».proof.Proof.Gen.KernelIdeal.Skeleton
import proofs.«131098_j61297773248742_2_alg».proof.Proof.Gen.KernelIdeal.Launch
import proofs.«131098_j61297773248742_2_alg».proof.Proof.Gen.KernelIdeal.Points
import proofs.«131098_j61297773248742_2_alg».proof.Proof.Gen.KernelIdeal.Frame
import proofs.«131098_j61297773248742_2_alg».proof.Proof.Gen.ReferenceIdeal
import proofs.«131098_j61297773248742_2_alg».proof.Proof.Gen.Pre_finite_inputs
import proofs.«131098_j61297773248742_2_alg».proof.Proof.RefRun
import proofs.«131098_j61297773248742_2_alg».proof.Proof.RefRead
import proofs.«131098_j61297773248742_2_alg».proof.Proof.RowLoss
import proofs.«131098_j61297773248742_2_alg».proof.Proof.TakeAlong
import proofs.«131098_j61297773248742_2_alg».proof.Proof.PreDecode
import proofs.«131098_j61297773248742_2_alg».proof.Proof.KernelRegion
import proofs.«131098_j61297773248742_2_alg».proof.Proof.KernelPrelude
import proofs.«131098_j61297773248742_2_alg».proof.Proof.KernelValue
import proofs.«131098_j61297773248742_2_alg».proof.Proof.Stages
import proofs.«131098_j61297773248742_2_alg».proof.Proof.RefValue
import Idealize.ShloMosaic.Adequacy
import Idealize.ShloMosaic.Init

noncomputable section

namespace Cert.Proof

open Idealize.ShloMosaic Idealize.ShloMosaic.ValueIdx Idealize.SL.Sem

/-- The word-level kernel's frame: its generated frame run. -/
theorem frame_kernel : Cert.frame_Kernel := fun m ρ _ => Cert.Kernel.Gen.frame m ρ

/-- The idealized kernel's frame: its generated frame run. -/
theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- At the extended reals, from memories agreeing on the arguments: the kernel's result buffer ends at the mean of its
    output array, which is the first arrangement of the row data; the reference's at the second arrangement of the same
    row data (the integer stages are one term in both programs); the two arrangements are one number. -/
theorem algebraic : Cert.algebraic_KernelIdeal_ReferenceIdeal := by
  intro m ρ m' ρ' hpre hagree
  refine ⟨fun c => (fun _ => Cert.RowLoss.kernelTotalArr ((Cert.KernelIdeal.Gen.dats m 0 c).arrAt 5 Cert.KernelIdeal.cfg0.N)),
    Cert.KernelIdeal.Region.kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨hfin, hy, hn⟩ := Cert.PreDecode.decode _ _ _ _ _ (hpre c)
  rw [Cert.ReferenceIdeal.ReadP.val_main_v52_eq]
  funext i
  show _ = Cert.RowLoss.kernelTotalArr ((Cert.KernelIdeal.Gen.dats m 0 c).arrAt 5 Cert.KernelIdeal.cfg0.N)
  rw [(hagree c).1, (hagree c).2.1, (hagree c).2.2.1, (hagree c).2.2.2.1, (hagree c).2.2.2.2]
  rw [Cert.ReferenceIdeal.RefValue.ref_value _ _ _ _ _ hy hn i, Cert.KernelIdeal.KValue.kernel_value m c hy hn,
    Cert.KernelIdeal.Prelude.V_nbrIdx m c, Cert.KernelIdeal.Prelude.V_mskBits m c, Cert.KernelIdeal.Prelude.V_cluBits m c,
    Cert.Stages.nbrIdx_eq, Cert.Stages.mskBits_eq, Cert.Stages.cluBits_eq]
  exact (Cert.RowLoss.total_eq _ _ _ _ _ (fun b c' => hfin (ix2 b c'))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
